-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S12288x4096 : Shape := ⟨2, ![12288, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S12288x4096 .f32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S12288x4096 : Shape := ⟨2, ![12288, 4096]⟩
abbrev S4096x4096 : Shape := ⟨2, ![4096, 4096]⟩
abbrev S4096 : Shape := ⟨1, ![4096]⟩
abbrev S4096x12288 : Shape := ⟨2, ![4096, 12288]⟩
abbrev S128x32x4096 : Shape := ⟨3, ![128, 32, 4096]⟩
abbrev S32x128x4096 : Shape := ⟨3, ![32, 128, 4096]⟩
abbrev S1x4096 : Shape := ⟨2, ![1, 4096]⟩
abbrev S8192x12288 : Shape := ⟨2, ![8192, 12288]⟩
abbrev S1024x2048 : Shape := ⟨2, ![1024, 2048]⟩
abbrev S2048x1024 : Shape := ⟨2, ![2048, 1024]⟩
abbrev S1024x1024 : Shape := ⟨2, ![1024, 1024]⟩
abbrev S8192x3x32x128 : Shape := ⟨4, ![8192, 3, 32, 128]⟩
abbrev S256x3x32x128 : Shape := ⟨4, ![256, 3, 32, 128]⟩
abbrev S256x4096 : Shape := ⟨2, ![256, 4096]⟩
abbrev S256x1x32x128 : Shape := ⟨4, ![256, 1, 32, 128]⟩
abbrev S256x32x128 : Shape := ⟨3, ![256, 32, 128]⟩
abbrev S256x32x32 : Shape := ⟨3, ![256, 32, 32]⟩
abbrev S256x32 : Shape := ⟨2, ![256, 32]⟩
abbrev S256x32x1 : Shape := ⟨3, ![256, 32, 1]⟩
abbrev S1x1024 : Shape := ⟨2, ![1, 1024]⟩

abbrev nBuf : Space → Nat
  | .hbm => 17
  | .vmem => 20
  | .smem => 0
  | _ => 0

abbrev bufTy : (tb : Table) → Fin (tcTables nBuf tb) → BufTy
  | .hbm, ⟨0, _⟩ => ⟨S8192x4096, .f32⟩
  | .hbm, ⟨1, _⟩ => ⟨S12288x4096, .f32⟩
  | .hbm, ⟨2, _⟩ => ⟨S4096x4096, .f32⟩
  | .hbm, ⟨3, _⟩ => ⟨S4096, .f32⟩
  | .hbm, ⟨4, _⟩ => ⟨S8192x4096, .bf16⟩
  | .hbm, ⟨5, _⟩ => ⟨S4096x12288, .f32⟩
  | .hbm, ⟨6, _⟩ => ⟨S4096x12288, .bf16⟩
  | .hbm, ⟨7, _⟩ => ⟨S4096x4096, .f32⟩
  | .hbm, ⟨8, _⟩ => ⟨S128x32x4096, .f32⟩
  | .hbm, ⟨9, _⟩ => ⟨S32x128x4096, .f32⟩
  | .hbm, ⟨10, _⟩ => ⟨S4096x4096, .f32⟩
  | .hbm, ⟨11, _⟩ => ⟨S4096x4096, .bf16⟩
  | .hbm, ⟨12, _⟩ => ⟨S1x4096, .f32⟩
  | .hbm, ⟨13, _⟩ => ⟨S8192x12288, .bf16⟩
  | .hbm, ⟨14, _⟩ => ⟨S8192x3x32x128, .bf16⟩
  | .hbm, ⟨15, _⟩ => ⟨S8192x4096, .bf16⟩
  | .hbm, ⟨16, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S256x3x32x128, .bf16⟩
  | .local _ .vmem, ⟨8, _⟩ => ⟨S256x3x32x128, .bf16⟩
  | .local _ .vmem, ⟨9, _⟩ => ⟨S256x4096, .bf16⟩
  | .local _ .vmem, ⟨10, _⟩ => ⟨S256x4096, .bf16⟩
  | .local _ .vmem, ⟨11, _⟩ => ⟨S1024x2048, .bf16⟩
  | .local _ .vmem, ⟨12, _⟩ => ⟨S1024x2048, .bf16⟩
  | .local _ .vmem, ⟨13, _⟩ => ⟨S2048x1024, .bf16⟩
  | .local _ .vmem, ⟨14, _⟩ => ⟨S2048x1024, .bf16⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨3, ![8, 12, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3x32x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![8, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bitsLt_bf16_f32 : FTy.bits .bf16 < FTy.bits .f32
  transposes_S12288x4096_S4096x12288_1_0 : S12288x4096.Transposes [1, 0] S4096x12288
  transposes_S4096x4096_S4096x4096_1_0 : S4096x4096.Transposes [1, 0] S4096x4096
  shapeCasts_S4096x4096_S128x32x4096 : S4096x4096.ShapeCasts S128x32x4096
  transposes_S128x32x4096_S32x128x4096_1_0_2 : S128x32x4096.Transposes [1, 0, 2] S32x128x4096
  shapeCasts_S32x128x4096_S4096x4096 : S32x128x4096.ShapeCasts S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S1024x1024_S1024x1024_0_0 : (Rect.unit (s := S1024x1024) ![0, 0] S1024x1024.size inb_S1024x1024_S1024x1024_0_0).PackedRows (EltTy.packing .bf16)
  shapeCasts_S8192x12288_S8192x3x32x128 : S8192x12288.ShapeCasts S8192x3x32x128
  inb_S256x3x32x128_S256x3x32x128_0_0_0_0 : ∀ a, (![0, 0, 0, 0] : Fin 4 → Nat) a + S256x3x32x128.size a ≤ S256x3x32x128.size a
  h_S256x3x32x128 : 0 < S256x3x32x128.numel
  shapeCasts_S256x3x32x128_S256x3x32x128 : S256x3x32x128.ShapeCasts S256x3x32x128
  slices_S256x3x32x128_o0_0_0_0_S256x1x32x128 : S256x3x32x128.Slices ![0, 0, 0, 0] S256x1x32x128
  shapeCasts_S256x1x32x128_S256x32x128 : S256x1x32x128.ShapeCasts S256x32x128
  slices_S256x3x32x128_o0_1_0_0_S256x1x32x128 : S256x3x32x128.Slices ![0, 1, 0, 0] S256x1x32x128
  slices_S256x3x32x128_o0_2_0_0_S256x1x32x128 : S256x3x32x128.Slices ![0, 2, 0, 0] S256x1x32x128
  reduces_S256x32x32_S256x32 : S256x32x32.Reduces [2] S256x32
  shapeCasts_S256x32_S256x32x1 : S256x32.ShapeCasts S256x32x1
  broadcasts_S256x32x1_S256x32x32 : S256x32x1.Broadcasts S256x32x32
  shapeCasts_S256x32x128_S256x4096 : S256x32x128.ShapeCasts S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S2048x1024_S1024x1024_1_0_0_1_n_n_wf : DotDims.WF S1024x2048 S2048x1024 S1024x1024 [1] [0] [0] [1] [] []
  dot_S256x32x128_S256x32x128_S256x32x32_2_2_1_1_0_0_wf : DotDims.WF S256x32x128 S256x32x128 S256x32x32 [2] [2] [1] [1] [0] [0]
  dot_S256x32x32_S256x32x128_S256x32x128_2_1_1_2_0_0_wf : DotDims.WF S256x32x32 S256x32x128 S256x32x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x12288.size a
  hwx0_1 : ∀ i : grid0.Coords, EltTy.bits .bf16 = 32 ∨ (Rect.block (s := S4096x12288) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x12288.size a
  hwx0_2 : ∀ i : grid0.Coords, EltTy.bits .bf16 = 32 ∨ (Rect.block (s := S8192x12288) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3x32x128.size a ≤ S8192x3x32x128.size a
  hwx1_0 : ∀ i : grid1.Coords, EltTy.bits .bf16 = 32 ∨ (Rect.block (s := S8192x3x32x128) S256x3x32x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .bf16 = 32 ∨ (Rect.block (s := S8192x4096) S256x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x4096.size a
  hwx2_0 : ∀ i : grid2.Coords, EltTy.bits .bf16 = 32 ∨ (Rect.block (s := S8192x4096) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S4096x4096.size a
  hwx2_1 : ∀ i : grid2.Coords, EltTy.bits .bf16 = 32 ∨ (Rect.block (s := S4096x4096) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x4096.size a
  hwx2_3 : ∀ i : grid2.Coords, EltTy.bits .f32 = 32 ∨ (Rect.block (s := S8192x4096) S1024x1024.size (cc2_transform_3 i) (hinb2_3 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S256x32x128_S256x32x128_S256x32x32_2_2_1_1_0_0 : DotDims S256x32x128 S256x32x128 S256x32x32 where
  lhsContracting := [2]
  rhsContracting := [2]
  lhsNonContracting := [1]
  rhsNonContracting := [1]
  lhsBatch := [0]
  rhsBatch := [0]
  wf := dot_S256x32x128_S256x32x128_S256x32x32_2_2_1_1_0_0_wf
def dot_S256x32x32_S256x32x128_S256x32x128_2_1_1_2_0_0 : DotDims S256x32x32 S256x32x128 S256x32x128 where
  lhsContracting := [2]
  rhsContracting := [1]
  lhsNonContracting := [1]
  rhsNonContracting := [2]
  lhsBatch := [0]
  rhsBatch := [0]
  wf := dot_S256x32x32_S256x32x128_S256x32x128_2_1_1_2_0_0_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v10) S256x3x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S256x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v11) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S12288x4096 : Shape := ⟨2, ![12288, 4096]⟩
abbrev S4096x4096 : Shape := ⟨2, ![4096, 4096]⟩
abbrev S4096 : Shape := ⟨1, ![4096]⟩
abbrev S4096x12288 : Shape := ⟨2, ![4096, 12288]⟩
abbrev S8192x12288 : Shape := ⟨2, ![8192, 12288]⟩
abbrev S8192x3x32x128 : Shape := ⟨4, ![8192, 3, 32, 128]⟩
abbrev S8192x1x32x128 : Shape := ⟨4, ![8192, 1, 32, 128]⟩
abbrev S8192x32x128 : Shape := ⟨3, ![8192, 32, 128]⟩
abbrev S8192x32x32 : Shape := ⟨3, ![8192, 32, 32]⟩
abbrev S_ : Shape := ⟨0, ![]⟩
abbrev S8192x32 : Shape := ⟨2, ![8192, 32]⟩
abbrev S8192x32x1 : Shape := ⟨3, ![8192, 32, 1]⟩
abbrev S8192x128x32 : Shape := ⟨3, ![8192, 128, 32]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S12288x4096, .f32⟩
  | .hbm, ⟨2, _⟩ => ⟨S4096x4096, .f32⟩
  | .hbm, ⟨3, _⟩ => ⟨S4096, .f32⟩
  | .hbm, ⟨4, _⟩ => ⟨S4096x12288, .f32⟩
  | .hbm, ⟨5, _⟩ => ⟨S8192x12288, .f32⟩
  | .hbm, ⟨6, _⟩ => ⟨S8192x3x32x128, .f32⟩
  | .hbm, ⟨7, _⟩ => ⟨S8192x1x32x128, .f32⟩
  | .hbm, ⟨8, _⟩ => ⟨S8192x32x128, .f32⟩
  | .hbm, ⟨9, _⟩ => ⟨S8192x1x32x128, .f32⟩
  | .hbm, ⟨10, _⟩ => ⟨S8192x32x128, .f32⟩
  | .hbm, ⟨11, _⟩ => ⟨S8192x1x32x128, .f32⟩
  | .hbm, ⟨12, _⟩ => ⟨S8192x32x128, .f32⟩
  | .hbm, ⟨13, _⟩ => ⟨S8192x32x32, .f32⟩
  | .hbm, ⟨14, _⟩ => ⟨S_, .f32⟩
  | .hbm, ⟨15, _⟩ => ⟨S8192x32x32, .f32⟩
  | .hbm, ⟨16, _⟩ => ⟨S8192x32x32, .f32⟩
  | .hbm, ⟨17, _⟩ => ⟨S_, .f32⟩
  | .hbm, ⟨18, _⟩ => ⟨S8192x32, .f32⟩
  | .hbm, ⟨19, _⟩ => ⟨S_, .f32⟩
  | .hbm, ⟨20, _⟩ => ⟨S8192x32, .f32⟩
  | .hbm, ⟨21, _⟩ => ⟨S8192x32, .f32⟩
  | .hbm, ⟨22, _⟩ => ⟨S8192x32x1, .f32⟩
  | .hbm, ⟨23, _⟩ => ⟨S8192x32x32, .f32⟩
  | .hbm, ⟨24, _⟩ => ⟨S8192x32x32, .f32⟩
  | .hbm, ⟨25, _⟩ => ⟨S8192x32x32, .f32⟩
  | .hbm, ⟨26, _⟩ => ⟨S_, .f32⟩
  | .hbm, ⟨27, _⟩ => ⟨S8192x32, .f32⟩
  | .hbm, ⟨28, _⟩ => ⟨S8192x32x1, .f32⟩
  | .hbm, ⟨29, _⟩ => ⟨S8192x32x32, .f32⟩
  | .hbm, ⟨30, _⟩ => ⟨S8192x32x32, .f32⟩
  | .hbm, ⟨31, _⟩ => ⟨S8192x32x128, .f32⟩
  | .hbm, ⟨32, _⟩ => ⟨S8192x128x32, .f32⟩
  | .hbm, ⟨33, _⟩ => ⟨S8192x4096, .f32⟩
  | .hbm, ⟨34, _⟩ => ⟨S4096x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  transposes_S12288x4096_S4096x12288_1_0 : S12288x4096.Transposes [1, 0] S4096x12288
  shapeCasts_S8192x12288_S8192x3x32x128 : S8192x12288.ShapeCasts S8192x3x32x128
  slices_S8192x3x32x128_S8192x1x32x128_0_0_0_0 : S8192x3x32x128.Slices ![0, 0, 0, 0] S8192x1x32x128
  shapeCasts_S8192x1x32x128_S8192x32x128 : S8192x1x32x128.ShapeCasts S8192x32x128
  slices_S8192x3x32x128_S8192x1x32x128_0_1_0_0 : S8192x3x32x128.Slices ![0, 1, 0, 0] S8192x1x32x128
  slices_S8192x3x32x128_S8192x1x32x128_0_2_0_0 : S8192x3x32x128.Slices ![0, 2, 0, 0] S8192x1x32x128
  bcast_S_S8192x32x32 : S_.BroadcastsInDim S8192x32x32 (![] : Fin 0 → Fin S8192x32x32.rank)
  reducesTo_S8192x32x32_S8192x32_d2 : S8192x32x32.ReducesTo [2] S8192x32
  h_S_ : 0 < S_.numel
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192x32x1_S8192x32x32_0_1_2 : S8192x32x1.BroadcastsInDim S8192x32x32 (![0, 1, 2] : Fin 3 → Fin S8192x32x32.rank)
  transposes_S8192x32x128_S8192x128x32_0_2_1 : S8192x32x128.Transposes [0, 2, 1] S8192x128x32
  shapeCasts_S8192x128x32_S8192x4096 : S8192x128x32.ShapeCasts S8192x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x12288_S8192x12288_1_0_0_1_n_n_wf : DotDims.WF S8192x4096 S4096x12288 S8192x12288 [1] [0] [0] [1] [] []
  dot_S8192x32x128_S8192x32x128_S8192x32x32_2_2_1_1_0_0_wf : DotDims.WF S8192x32x128 S8192x32x128 S8192x32x32 [2] [2] [1] [1] [0] [0]
  dot_S8192x32x32_S8192x32x128_S8192x32x128_2_1_1_2_0_0_wf : DotDims.WF S8192x32x32 S8192x32x128 S8192x32x128 [2] [1] [1] [2] [0] [0]
  dot_S8192x4096_S4096x4096_S8192x4096_1_0_0_1_n_n_wf : DotDims.WF S8192x4096 S4096x4096 S8192x4096 [1] [0] [0] [1] [] []

variable [Facts₀]

def dot_S8192x4096_S4096x12288_S8192x12288_1_0_0_1_n_n : DotDims S8192x4096 S4096x12288 S8192x12288 where
  lhsContracting := [1]
  rhsContracting := [0]
  lhsNonContracting := [0]
  rhsNonContracting := [1]
  lhsBatch := []
  rhsBatch := []
  wf := dot_S8192x4096_S4096x12288_S8192x12288_1_0_0_1_n_n_wf
def dot_S8192x32x128_S8192x32x128_S8192x32x32_2_2_1_1_0_0 : DotDims S8192x32x128 S8192x32x128 S8192x32x32 where
  lhsContracting := [2]
  rhsContracting := [2]
  lhsNonContracting := [1]
  rhsNonContracting := [1]
  lhsBatch := [0]
  rhsBatch := [0]
  wf := dot_S8192x32x128_S8192x32x128_S8192x32x32_2_2_1_1_0_0_wf
def dot_S8192x32x32_S8192x32x128_S8192x32x128_2_1_1_2_0_0 : DotDims S8192x32x32 S8192x32x128 S8192x32x128 where
  lhsContracting := [2]
  rhsContracting := [1]
  lhsNonContracting := [1]
  rhsNonContracting := [2]
  lhsBatch := [0]
  rhsBatch := [0]
  wf := dot_S8192x32x32_S8192x32x128_S8192x32x128_2_1_1_2_0_0_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.FrameK.Region0.lean ====
/-
  The first matrix product's region (x · wqᵀ, tiled 1024 × 1024 over a K axis of two 2048-blocks), run as a
  pipeline at any float instance: what the body does at a grid point, case by case.

  A grid point is (i, j, k) with k the fastest coordinate. At k = 0 the body zeroes the 1024 × 1024 accumulator it
  keeps in scratch, adds the product of the point's two input blocks into it and stores nothing into the output
  block (the output window is idle there and is not written back). At k = 1 it adds the second product into what
  the point before left and stores the accumulator, narrowed, into the output block. So the accumulator after a
  point is a function of the input blocks of the points of its (i, j) pair so far, and the region's invariant
  carries it from a point to the next.
-/
import proofs.«100182_j74002286510407_2_alg».proof.Proof.Gen.Kernel.Launch
import proofs.«100182_j74002286510407_2_alg».proof.Proof.Gen.Kernel.Skeleton
import proofs.«100182_j74002286510407_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, for any proof data over the entry arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, decided over the grid -/

/-- "k = 0", as the body computes it from the grid coordinates. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "k = 1", the last K-block. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At k = 0 the output window is idle: the body stores nothing into it … -/
theorem idleAt0_2_A : ∀ t : Fin cfg0.N, cond0_0 (grid0.coords t) → ¬cond0_1 (grid0.coords t) → cfg0.idle 2 (grid0.coords t) = true := by decide +kernel
/-- … and the pipeline does not write its block back. -/
theorem noFlush0_2_A : ∀ t : Fin cfg0.N, cond0_0 (grid0.coords t) → ¬cond0_1 (grid0.coords t) → (cfg0.win 2).flush t = false := by decide +kernel
/-- At k = 1 it is live. -/
theorem liveAt0_2_B : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x1024 .bf16 := (Memref.whole cc0_stg2_0 : Memref sig .tc .vmem S1024x1024 .bf16).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The core's other scoped buffers (the later calls' staging buffers and accumulator), each whole at some contents: this
    region never touches them. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The region's class invariant with the accumulator singled out: the accumulator at some contents, the other scoped buffers,
    the generator register at some state. -/
theorem PhiA0_eq (c : Dev nD) :
    (Pipeline.ΦA spec0 c : sProp 𝕄)
      = iprop(iprop((∃ d, owns (c : Thread nD τ) scM0_0 fullShare d) ∗ other0 (F := F) c) ∗ (∃ r, prngReg c r)) := by
  unfold Pipeline.ΦA other0; rw [scopedRest0_eq]; simp only [scM0_0, owns_whole]; try rfl

/-! ## The body, case by case -/

set_option maxHeartbeats 2000000 in
/-- The body at a point with k = 0, on whole memrefs: the operands' blocks are read and left as they were, the idle output buffer
    is handed back untouched, and the accumulator — found at anything — ends with the pieces the run's stores wrote (the reset,
    then the first product added to it). The pieces are the witness the symbolic run finds. -/
noncomputable def kernelRun0_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S2048x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 2000000 in
/-- The body at a point with k = 1: the accumulator is found at what the point before left (`xs0`), the second product is added to
    it, and the output buffer — found at anything — ends with the narrowed accumulator stored whole. -/
noncomputable def kernelRun0_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S2048x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves -/

/-- At k = 0 nothing is stored into the output block: a placeholder nothing consults (the window is neither written back
    nor read at the next point). -/
def out0_A_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec F S1024x2048 .bf16) (x1 : Vec F S2048x1024 .bf16) : Vec F S1024x1024 .bf16 :=
  VO0_2.read (Elt F) (VO0_2.writes (Elt F) VO0_2.junk (kernelRun0_A c i arg3 harg3 arg4 harg4 arg5 harg5 arg6 harg6 hc0 hc1 x0 x1).1)

/-- The k = 0 stores into the accumulator cover it. -/
theorem scover0_A_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec F S1024x2048 .bf16) (x1 : Vec F S2048x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- The accumulator after a point with k = 0. -/
def sout0_A_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec F S1024x2048 .bf16) (x1 : Vec F S2048x1024 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- The k = 1 store into the output block covers it. -/
theorem cover0_B_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec F S1024x2048 .bf16) (x1 : Vec F S2048x1024 .bf16) (xs0 : Vec F S1024x1024 .f32) (y : S1024x1024.Idx) :
    ∃ pc ∈ (kernelRun0_B c i arg3 harg3 arg4 harg4 arg5 harg5 arg6 harg6 hc0 hc1 x0 x1 xs0).1, y ∈ pc.1.set :=
  View.cover_of_tiledL (kernelRun0_B c i arg3 harg3 arg4 harg4 arg5 harg5 arg6 harg6 hc0 hc1 x0 x1 xs0).1 S1024x1024.size (by sl_kernel_rfl) y

/-- The output block after a point with k = 1. -/
def out0_B_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec F S1024x2048 .bf16) (x1 : Vec F S2048x1024 .bf16) (xs0 : Vec F S1024x1024 .f32) : Vec F S1024x1024 .bf16 :=
  VO0_2.read (Elt F) (VO0_2.writes (Elt F) VO0_2.junk (kernelRun0_B c i arg3 harg3 arg4 harg4 arg5 harg5 arg6 harg6 hc0 hc1 x0 x1 xs0).1)

/-- The k = 1 store into the accumulator covers it. -/
theorem scover0_B_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec F S1024x2048 .bf16) (x1 : Vec F S2048x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- The accumulator after a point with k = 1. -/
def sout0_B_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec F S1024x2048 .bf16) (x1 : Vec F S2048x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

/-! ## Point by point -/

/-- What the output block and the accumulator hold after the body at position `n`: an even position runs the k = 0 case on the
    point's input blocks, an odd one the k = 1 case on them and on the accumulator the position before left. -/
def outsAt0 (c : Dev nD) : (n : ℕ) → n < cfg0.N → Vec F S1024x1024 .bf16 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 2 = 0 then
      if h1 : (n + 1) % 2 = 1 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 2 = 1 then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        False.elim (by omega)

/-- At an even point: the k = 0 case's contents. -/
theorem outsAt0_A (c : Dev nD) (t : Fin cfg0.N) (h0 : t.val % 2 = 0) (h1 : ¬t.val % 2 = 1) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At an odd point: the k = 1 case's contents over what the point before left in the accumulator. -/
theorem outsAt0_B (c : Dev nD) (t : Fin cfg0.N) (h0 : ¬t.val % 2 = 0) (h1 : t.val % 2 = 1) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything); afterwards
    the accumulator at what the point before left in it, the other scoped buffers at anything, the generator register at some
    state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ other0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ other0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ other0 (F := F) c) ∗ (∃ r, prngReg c r)) := by
  cases n with
  | zero => exact absurd rfl hz
  | succ n => rfl

/-! ## The pipeline's proof data -/

/-- The proof data of the first product's pipeline on core `c`: the arrays as the region finds them; after the body at a point
    each operand's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' memrefs hold their blocks; the parity of the point says which case it is in; the
    invariant hands the body the accumulator (at anything at k = 0, at what the point before left at k = 1) and takes it back at
    this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 192 := lt_of_lt_of_eq t.isLt (show cfg0.N = 192 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · have h1 : ¬t.val % 2 = 1 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _)
          iexact Hoth
        iexact Hg
      isplitl [Ho]; · iexact Ho
      isplitl [H0]; · iexact H0
      isplitl [H1]; · iexact H1
      iexists _; iexact H2
  · have h1 : t.val % 2 = 1 := by omega
    rw [show (dat0 V c).leavesExact 2 t = owns (c : Thread nD τ) (ms0_2 t) fullShare ((dat0 V c).after 2 t) from by
      unfold Dat.leavesExact; rw [liveAt0_2_B t (fun h => h0 ((hcond0_0 t).mp h)) ((hcond0_1 t).mpr h1)], after0_2]
    rw [outsAt0_B V c t h0 h1]
    unfold out0_B_2 sout0_B_0; (try dsimp only)
    have hz : t.val ≠ 0 := by omega
    rw [PhiS0_castSucc V c t, PhiS0_pos V c _ _ hz]
    iintro ⟨⟨⟨HS0, Hoth⟩, Hg⟩, Ho, ⟨%d0, H0⟩, ⟨%d1, H1⟩, ⟨%d2, H2⟩⟩
    iapply ((kernelRun0_B c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_B_0 c _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 192 := N_0; omega), PhiA0_eq]
  iintro ⟨⟨HS0, Hoth⟩, Hg⟩
  isplitl [HS0 Hoth]
  · isplitl [HS0]
    · iexists _; iexact HS0
    iexact Hoth
  iexact Hg

end Cert.Kernel.Hand

end
-- ==== Proof.FrameK.Region1.lean ====
/-
  The attention region: 32 grid points, each handling 256 batch rows. The body reads its whole input block (the rows' q, k and v
  tables), computes the rows' attention outputs as one pure term, and stores them whole into the output block; it keeps nothing
  between points and has one control case, so the output block after the body is the canon of that one store.
-/
import proofs.«100182_j74002286510407_2_alg».proof.Proof.Gen.Kernel.Launch
import proofs.«100182_j74002286510407_2_alg».proof.Proof.Gen.Kernel.Skeleton
import proofs.«100182_j74002286510407_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds its block at every point, for any proof data over the entry arrays whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_in : Rect S256x3x32x128 := Rect.unit (s := S256x3x32x128) ![0, 0, 0, 0] S256x3x32x128.size inb_S256x3x32x128_S256x3x32x128_0_0_0_0
abbrev r1_out : Rect S256x4096 := Rect.unit (s := S256x4096) ![0, 0] S256x4096.size inb_S256x4096_S256x4096_0_0

/-- The output block after the body, from the input block: its one store as a piece. -/
def out1_1 (x0 : Vec F S256x3x32x128 .bf16) : Vec F S256x4096 .bf16 :=
  View.canon [⟨r1_out, k1_pay1 (View.ld x0 r1_in)⟩]

/-- The store is of the whole block, so it covers it. -/
theorem cover1_1 (p0 : Vec F S256x4096 .bf16) (y : S256x4096.Idx) :
    ∃ pc ∈ ([⟨r1_out, p0⟩] : List (View.Piece (Elt F) S256x4096 .bf16)), y ∈ pc.1.set :=
  View.cover_of_tiled [⟨r1_out, p0⟩] S256x4096.size (by rfl) y

/-! ## The body's triple -/

set_option maxHeartbeats 2000000 in
/-- The body on whole staging memrefs, the input's at contents `x0` and the output's at anything, runs to the continuation holding
    the input's as it was and the output's at `out1_1 x0`. -/
theorem sound_kernel1 (c : Dev nD) (E : Set ℕ) (i : grid1.Coords) (arg1 : Memref sig .tc .vmem S256x3x32x128 .bf16) (harg1 : arg1.IsWhole) (arg2 : Memref sig .tc .vmem S256x4096 .bf16) (harg2 : arg2.IsWhole)
    (x0 : Vec F S256x3x32x128 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__attn_kernel i arg1 harg1 arg2 harg2) K := by
  simp only [cc1__attn_kernel_eq_skeleton]; unfold cc1__attn_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of the attention pipeline on core `c`: the arrays as the region finds them; after the body at a point the
    input's buffer at its block and the output's at `out1_1` of it; the class's invariant (the scoped rest and the generator
    register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the triple applies; the invariant and the core's dues pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameK.Region2.lean ====
/-
  The second matrix product's region (the attention outputs times the permuted projection weights, plus the bias; tiled
  1024 × 1024 over a K axis of two 2048-blocks), run as a pipeline at any float instance.

  A grid point is (i, j, k) with k the fastest coordinate. At k = 0 the body zeroes the accumulator it keeps in scratch and adds
  the product of the point's two operand blocks into it; the output window is idle there. At k = 1 it adds the second product
  into what the point before left, adds the bias row (broadcast down the rows) and stores the sum into the output block. The bias
  block is fetched only when j changes, and is found in its staging buffer at every point all the same.
-/
import proofs.«100182_j74002286510407_2_alg».proof.Proof.Gen.Kernel.Launch
import proofs.«100182_j74002286510407_2_alg».proof.Proof.Gen.Kernel.Skeleton
import proofs.«100182_j74002286510407_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, for any proof data over the entry arrays whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the right operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias row, fetched only at the points where its block changes. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- "k = 0", as the body computes it from the grid coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

/-- "k = 1", the last K-block. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At k = 0 the output window is idle: the body stores nothing into it … -/
theorem idleAt2_3_A : ∀ t : Fin cfg2.N, cond2_0 (grid2.coords t) → ¬cond2_1 (grid2.coords t) → cfg2.idle 3 (grid2.coords t) = true := by decide +kernel
/-- … and the pipeline does not write its block back. -/
theorem noFlush2_3_A : ∀ t : Fin cfg2.N, cond2_0 (grid2.coords t) → ¬cond2_1 (grid2.coords t) → (cfg2.win 3).flush t = false := by decide +kernel
/-- At k = 1 it is live. -/
theorem liveAt2_3_B : ∀ t : Fin cfg2.N, ¬cond2_0 (grid2.coords t) → cond2_1 (grid2.coords t) → cfg2.idle 3 (grid2.coords t) = false := by decide +kernel

/-! ## The memrefs the body is called with -/

abbrev VO2_3 : View sig .tc .vmem S1024x1024 .f32 := (Memref.whole cc2_stg3_0 : Memref sig .tc .vmem S1024x1024 .f32).view
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x1024 .f32 := Memref.whole cc2_scratch0
abbrev VS2_0 : View sig .tc .vmem S1024x1024 .f32 := scM2_0.view

/-- The core's other scoped buffers (the earlier calls' staging buffers and accumulator), each whole at some contents: this
    region never touches them. -/
def other2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region's class invariant with the accumulator singled out: the accumulator at some contents, the other scoped buffers,
    the generator register at some state (separating conjunction commutes). -/
theorem PhiA2_eq (c : Dev nD) :
    (Pipeline.ΦA spec2 c : sProp 𝕄)
      = iprop(iprop((∃ d, owns (c : Thread nD τ) scM2_0 fullShare d) ∗ other2 (F := F) c) ∗ (∃ r, prngReg c r)) := by
  unfold Pipeline.ΦA other2; rw [scopedRest2_eq]; simp only [scM2_0, owns_whole]
  refine congrArg (fun X : sProp 𝕄 => iprop(X ∗ (∃ r, prngReg c r))) (Idealize.SL.BI.Entails.antisymm ?_ ?_)
  · show (_ : sProp 𝕄) ⊢ (_ : sProp 𝕄)
    iintro ⟨H1, H2, H3, H4, H5, H6, H7, H8, H9, H10, H11, HS⟩
    isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · show (_ : sProp 𝕄) ⊢ (_ : sProp 𝕄)
    iintro ⟨HS, H1, H2, H3, H4, H5, H6, H7, H8, H9, H10, H11⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS

/-! ## The body, case by case -/

set_option maxHeartbeats 2000000 in
/-- The body at a point with k = 0, on whole memrefs: the operands' and the bias row's blocks are left as they were, the idle
    output buffer is handed back untouched, and the accumulator — found at anything — ends with the pieces the run's stores wrote
    (the reset, then the first product added to it). The pieces are the witness the symbolic run finds. -/
noncomputable def kernelRun2_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x2048 .bf16) (x1 : Vec F S2048x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 2000000 in
/-- The body at a point with k = 1: the accumulator is found at what the point before left (`xs0`), the second product is added to
    it, and the output buffer — found at anything — ends with the accumulator plus the bias row stored whole. -/
noncomputable def kernelRun2_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x2048 .bf16) (x1 : Vec F S2048x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves -/

/-- At k = 0 nothing is stored into the output block: a placeholder nothing consults. -/
def out2_A_3 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x2048 .bf16) (x1 : Vec F S2048x1024 .bf16) (x2 : Vec F S1x1024 .f32) : Vec F S1024x1024 .f32 :=
  VO2_3.read (Elt F) (VO2_3.writes (Elt F) VO2_3.junk (kernelRun2_A c i arg3 harg3 arg4 harg4 arg5 harg5 arg6 harg6 arg7 harg7 hc0 hc1 x0 x1 x2).1)

theorem scover2_A_0 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x2048 .bf16) (x1 : Vec F S2048x1024 .bf16) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y

/-- The accumulator after a point with k = 0. -/
def sout2_A_0 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x2048 .bf16) (x1 : Vec F S2048x1024 .bf16) (x2 : Vec F S1x1024 .f32) : Vec F S1024x1024 .f32 :=
  VS2_0.read (Elt F) (VS2_0.writes (Elt F) VS2_0.junk (kernelRun2_A c i arg3 harg3 arg4 harg4 arg5 harg5 arg6 harg6 arg7 harg7 hc0 hc1 x0 x1 x2).2.1)

theorem cover2_B_3 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x2048 .bf16) (x1 : Vec F S2048x1024 .bf16) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).1, y ∈ pc.1.set :=
  View.cover_of_tiledL (kernelRun2_B c i arg3 harg3 arg4 harg4 arg5 harg5 arg6 harg6 arg7 harg7 hc0 hc1 x0 x1 x2 xs0).1 S1024x1024.size (by sl_kernel_rfl) y

/-- The output block after a point with k = 1. -/
def out2_B_3 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x2048 .bf16) (x1 : Vec F S2048x1024 .bf16) (x2 : Vec F S1x1024 .f32) (xs0 : Vec F S1024x1024 .f32) : Vec F S1024x1024 .f32 :=
  VO2_3.read (Elt F) (VO2_3.writes (Elt F) VO2_3.junk (kernelRun2_B c i arg3 harg3 arg4 harg4 arg5 harg5 arg6 harg6 arg7 harg7 hc0 hc1 x0 x1 x2 xs0).1)

theorem scover2_B_0 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x2048 .bf16) (x1 : Vec F S2048x1024 .bf16) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y

/-- The accumulator after a point with k = 1. -/
def sout2_B_0 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x2048 .bf16) (x1 : Vec F S2048x1024 .bf16) (x2 : Vec F S1x1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-! ## Point by point -/

/-- What the output block and the accumulator hold after the body at position `n`: an even position runs the k = 0 case on the
    point's input blocks, an odd one the k = 1 case on them and on the accumulator the position before left. -/
def outsAt2 (c : Dev nD) : (n : ℕ) → n < cfg2.N → Vec F S1024x1024 .f32 × Vec F S1024x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      if h1 : (n + 1) % 2 = 1 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
          sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 2 = 1 then
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        False.elim (by omega)

theorem outsAt2_A (c : Dev nD) (t : Fin cfg2.N) (h0 : t.val % 2 = 0) (h1 : ¬t.val % 2 = 1) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
      sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 2 = 0) (h1 : t.val % 2 = 1) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the accumulator at what the point
    before left in it, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ other2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ other2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ other2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the input memrefs hold their blocks; the parity of the point says which case it is in; the invariant
    hands the body the accumulator (at anything at k = 0, at what the point before left at k = 1) and takes it back at this
    point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2 = 0
  · have h1 : ¬t.val % 2 = 1 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, Hoth⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have h1 : t.val % 2 = 1 := by omega
    rw [show (dat2 V c).leavesExact 3 t = owns (c : Thread nD τ) (ms2_3 t) fullShare ((dat2 V c).after 3 t) from by
      unfold Dat.leavesExact; rw [liveAt2_3_B t (fun h => h0 ((hcond2_0 t).mp h)) ((hcond2_1 t).mpr h1)], after2_3]
    rw [outsAt2_B V c t h0 h1]
    unfold out2_B_3 sout2_B_0; (try dsimp only)
    have hz : t.val ≠ 0 := by omega
    rw [PhiS2_castSucc V c t, PhiS2_pos V c _ _ hz]
    iintro ⟨⟨⟨HS0, Hoth⟩, Hg⟩, Ho, ⟨%d0, H0⟩, ⟨%d1, H1⟩, ⟨%d2, H2⟩, ⟨%d3, H3⟩⟩
    iapply ((kernelRun2_B c (grid2.coords t) _ _ _ _ _ _ _ _ _ _ (fun h => h0 ((hcond2_0 t).mp h)) ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover2_B_0 c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, Hoth⟩, Hg⟩
  isplitl [HS0 Hoth]
  · isplitl [HS0]
    · iexists _; iexact HS0
    iexact Hoth
  iexact Hg

end Cert.Kernel.Hand

end
-- ==== Proof.FrameK.Run.lean ====
/-
  The whole program as a run: nine host operations, the first matrix product's region, one reshape, the attention region, the
  second matrix product's region. The buffer contents at each boundary are a fold from the launch memory — a host stretch applies
  its operations, a region replaces its arrays by what its pipeline leaves in them —, each region is a segment entered from and
  left at "every unscoped buffer at the boundary's contents", and every weakly fair execution of @main ends with every unscoped
  buffer at the last boundary's contents. The argument arrays are written by nothing on the way, so they end as launched; the
  result array ends at what the third region's write-backs leave in it.
-/
import proofs.«100182_j74002286510407_2_alg».proof.Proof.FrameK.Region0
import proofs.«100182_j74002286510407_2_alg».proof.Proof.FrameK.Region1
import proofs.«100182_j74002286510407_2_alg».proof.Proof.FrameK.Region2
import proofs.«100182_j74002286510407_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the nine host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded in),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (the inputs as entered, the output's write-backs folded in),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: its arrays at what the pipeline leaves (the inputs as entered, the output's write-backs folded in),
    every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ### The arguments end as launched: no host operation and no region writes one -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at
    some state. -/
abbrev Tₙ (c : Dev nD) : sProp 𝕄 := iprop(StableHlo.held (c : Thread nD τ) (Pipeline.ucRefs τ sig) (W5 m c) ∗ ∃ r, prngReg c r)

/-! ## The regions as segments -/

-- unification against the pinned configuration may unfold plain definitions in a metavariable's type
set_option backward.isDefEq.respectTransparency.types false in
/-- Region 0 over the thread state: entered from every unscoped buffer at `W1`, left at `W2`. Its arrays are split out
    of the unscoped buffers and put back at their exit contents; the generator register goes into the invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show Pipeline.ΦA spec0 c ⊢ (pdats m 0 c).Φ 0 from hin0 (V1 m) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (show (pdats m 0 c).Φ (Fin.last _) ⊢ Pipeline.ΦA spec0 c from hout0 (V1 m) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration may unfold plain definitions in a metavariable's type
set_option backward.isDefEq.respectTransparency.types false in
/-- Region 1 over the thread state: entered from every unscoped buffer at `W3`, left at `W4`. Its arrays are split out
    of the unscoped buffers and put back at their exit contents; the generator register goes into the invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration may unfold plain definitions in a metavariable's type
set_option backward.isDefEq.respectTransparency.types false in
/-- Region 2 over the thread state: entered from every unscoped buffer at `W4`, left at `W5`. Its arrays are split out
    of the unscoped buffers and put back at their exit contents; the generator register goes into the invariant and comes back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show Pipeline.ΦA spec2 c ⊢ (pdats m 2 c).Φ 0 from hin2 (V4 m) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (show (pdats m 2 c).Φ (Fin.last _) ⊢ Pipeline.ΦA spec2 c from hout2 (V4 m) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The result array ends at what the third region's write-backs leave in it, and the four argument arrays as launched. -/
theorem run_main : θ_run defs (onTc (τ := τ) (main (F := F))) ⟨m, fun _ => 0, ρ⟩ (fun r => ∀ c : Dev nD,
      r.2.mem ((c.tc : Thread nD τ).loc main_v12) = (dat2 (V4 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_v12 (by decide))).trans (W5_arr m c 3),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c => (h c).2) (run_main m ρ)

end Cert.Kernel.Hand

end
-- ==== Proof.FrameKI.Region0.lean ====
/-
  The first matrix product's region (x · wqᵀ, tiled 1024 × 1024 over a K axis of two 2048-blocks), run as a
  pipeline at any float instance: what the body does at a grid point, case by case.

  A grid point is (i, j, k) with k the fastest coordinate. At k = 0 the body zeroes the 1024 × 1024 accumulator it
  keeps in scratch, adds the product of the point's two input blocks into it and stores nothing into the output
  block (the output window is idle there and is not written back). At k = 1 it adds the second product into what
  the point before left and stores the accumulator, narrowed, into the output block. So the accumulator after a
  point is a function of the input blocks of the points of its (i, j) pair so far, and the region's invariant
  carries it from a point to the next.
-/
import proofs.«100182_j74002286510407_2_alg».proof.Proof.Gen.KernelIdeal.Launch
import proofs.«100182_j74002286510407_2_alg».proof.Proof.Gen.KernelIdeal.Skeleton
import proofs.«100182_j74002286510407_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, for any proof data over the entry arrays whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, decided over the grid -/

/-- "k = 0", as the body computes it from the grid coordinates. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- "k = 1", the last K-block. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At k = 0 the output window is idle: the body stores nothing into it … -/
theorem idleAt0_2_A : ∀ t : Fin cfg0.N, cond0_0 (grid0.coords t) → ¬cond0_1 (grid0.coords t) → cfg0.idle 2 (grid0.coords t) = true := by decide +kernel
/-- … and the pipeline does not write its block back. -/
theorem noFlush0_2_A : ∀ t : Fin cfg0.N, cond0_0 (grid0.coords t) → ¬cond0_1 (grid0.coords t) → (cfg0.win 2).flush t = false := by decide +kernel
/-- At k = 1 it is live. -/
theorem liveAt0_2_B : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x1024 .bf16 := (Memref.whole cc0_stg2_0 : Memref sig .tc .vmem S1024x1024 .bf16).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1024 .f32 := Memref.whole cc0_scratch0
abbrev VS0_0 : View sig .tc .vmem S1024x1024 .f32 := scM0_0.view

/-- The core's other scoped buffers (the later calls' staging buffers and accumulator), each whole at some contents: this
    region never touches them. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The region's class invariant with the accumulator singled out: the accumulator at some contents, the other scoped buffers,
    the generator register at some state. -/
theorem PhiA0_eq (c : Dev nD) :
    (Pipeline.ΦA spec0 c : sProp 𝕄)
      = iprop(iprop((∃ d, owns (c : Thread nD τ) scM0_0 fullShare d) ∗ other0 (F := F) c) ∗ (∃ r, prngReg c r)) := by
  unfold Pipeline.ΦA other0; rw [scopedRest0_eq]; simp only [scM0_0, owns_whole]; try rfl

/-! ## The body, case by case -/

set_option maxHeartbeats 2000000 in
/-- The body at a point with k = 0, on whole memrefs: the operands' blocks are read and left as they were, the idle output buffer
    is handed back untouched, and the accumulator — found at anything — ends with the pieces the run's stores wrote (the reset,
    then the first product added to it). The pieces are the witness the symbolic run finds. -/
noncomputable def kernelRun0_A (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i)
    (x0 : Vec F S1024x2048 .bf16) (x1 : Vec F S2048x1024 .bf16) :
    Σ' (L2 : List (View.Piece (Elt F) S1024x1024 .bf16)), { LS0 : List (View.Piece (Elt F) S1024x1024 .f32) //
      ∀ (xi2 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 2000000 in
/-- The body at a point with k = 1: the accumulator is found at what the point before left (`xs0`), the second product is added to
    it, and the output buffer — found at anything — ends with the narrowed accumulator stored whole. -/
noncomputable def kernelRun0_B (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i)
    (x0 : Vec F S1024x2048 .bf16) (x1 : Vec F S2048x1024 .bf16) (xs0 : Vec F S1024x1024 .f32) :
    Σ' (L2 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_kernel i arg3 harg3 arg4 harg4 arg5 harg5 arg6 harg6) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves -/

/-- At k = 0 nothing is stored into the output block: a placeholder nothing consults (the window is neither written back
    nor read at the next point). -/
def out0_A_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec F S1024x2048 .bf16) (x1 : Vec F S2048x1024 .bf16) : Vec F S1024x1024 .bf16 :=
  VO0_2.read (Elt F) (VO0_2.writes (Elt F) VO0_2.junk (kernelRun0_A c i arg3 harg3 arg4 harg4 arg5 harg5 arg6 harg6 hc0 hc1 x0 x1).1)

/-- The k = 0 stores into the accumulator cover it. -/
theorem scover0_A_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec F S1024x2048 .bf16) (x1 : Vec F S2048x1024 .bf16) (y : S1024x1024.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x1024.size (by sl_kernel_rfl) y

/-- The accumulator after a point with k = 0. -/
def sout0_A_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : cond0_0 i) (hc1 : ¬cond0_1 i) (x0 : Vec F S1024x2048 .bf16) (x1 : Vec F S2048x1024 .bf16) : Vec F S1024x1024 .f32 :=
  VS0_0.read (Elt F) (VS0_0.writes (Elt F) VS0_0.junk (kernelRun0_A c i arg3 harg3 arg4 harg4 arg5 harg5 arg6 harg6 hc0 hc1 x0 x1).2.1)

/-- The k = 1 store into the output block covers it. -/
theorem cover0_B_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec F S1024x2048 .bf16) (x1 : Vec F S2048x1024 .bf16) (xs0 : Vec F S1024x1024 .f32) (y : S1024x1024.Idx) :
    ∃ pc ∈ (kernelRun0_B c i arg3 harg3 arg4 harg4 arg5 harg5 arg6 harg6 hc0 hc1 x0 x1 xs0).1, y ∈ pc.1.set :=
  View.cover_of_tiledL (kernelRun0_B c i arg3 harg3 arg4 harg4 arg5 harg5 arg6 harg6 hc0 hc1 x0 x1 xs0).1 S1024x1024.size (by sl_kernel_rfl) y

/-- The output block after a point with k = 1. -/
def out0_B_2 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec F S1024x2048 .bf16) (x1 : Vec F S2048x1024 .bf16) (xs0 : Vec F S1024x1024 .f32) : Vec F S1024x1024 .bf16 :=
  VO0_2.read (Elt F) (VO0_2.writes (Elt F) VO0_2.junk (kernelRun0_B c i arg3 harg3 arg4 harg4 arg5 harg5 arg6 harg6 hc0 hc1 x0 x1 xs0).1)

/-- The k = 1 store into the accumulator covers it. -/
theorem scover0_B_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec F S1024x2048 .bf16) (x1 : Vec F S2048x1024 .bf16) (xs0 : Vec F S1024x1024 .f32) (y : S1024x1024.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S1024x1024.size (by sl_kernel_rfl) y

/-- The accumulator after a point with k = 1. -/
def sout0_B_0 (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole) (hc0 : ¬cond0_0 i) (hc1 : cond0_1 i) (x0 : Vec F S1024x2048 .bf16) (x1 : Vec F S2048x1024 .bf16) (xs0 : Vec F S1024x1024 .f32) : Vec F S1024x1024 .f32 :=
  VS0_0.read (Elt F) (VS0_0.writes (Elt F) VS0_0.junk (kernelRun0_B c i arg3 harg3 arg4 harg4 arg5 harg5 arg6 harg6 hc0 hc1 x0 x1 xs0).2.1)

/-! ## Point by point -/

/-- What the output block and the accumulator hold after the body at position `n`: an even position runs the k = 0 case on the
    point's input blocks, an odd one the k = 1 case on them and on the accumulator the position before left. -/
def outsAt0 (c : Dev nD) : (n : ℕ) → n < cfg0.N → Vec F S1024x1024 .bf16 × Vec F S1024x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 2 = 0 then
      if h1 : (n + 1) % 2 = 1 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 2 = 1 then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        False.elim (by omega)

/-- At an even point: the k = 0 case's contents. -/
theorem outsAt0_A (c : Dev nD) (t : Fin cfg0.N) (h0 : t.val % 2 = 0) (h1 : ¬t.val % 2 = 1) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At an odd point: the k = 1 case's contents over what the point before left in the accumulator. -/
theorem outsAt0_B (c : Dev nD) (t : Fin cfg0.N) (h0 : ¬t.val % 2 = 0) (h1 : t.val % 2 = 1) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer at anything); afterwards
    the accumulator at what the point before left in it, the other scoped buffers at anything, the generator register at some
    state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ other0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ other0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ other0 (F := F) c) ∗ (∃ r, prngReg c r)) := by
  cases n with
  | zero => exact absurd rfl hz
  | succ n => rfl

/-! ## The pipeline's proof data -/

/-- The proof data of the first product's pipeline on core `c`: the arrays as the region finds them; after the body at a point
    each operand's buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the operands' memrefs hold their blocks; the parity of the point says which case it is in; the
    invariant hands the body the accumulator (at anything at k = 0, at what the point before left at k = 1) and takes it back at
    this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 192 := lt_of_lt_of_eq t.isLt (show cfg0.N = 192 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 2 = 0
  · have h1 : ¬t.val % 2 = 1 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _)
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _)
          iexact Hoth
        iexact Hg
      isplitl [Ho]; · iexact Ho
      isplitl [H0]; · iexact H0
      isplitl [H1]; · iexact H1
      iexists _; iexact H2
  · have h1 : t.val % 2 = 1 := by omega
    rw [show (dat0 V c).leavesExact 2 t = owns (c : Thread nD τ) (ms0_2 t) fullShare ((dat0 V c).after 2 t) from by
      unfold Dat.leavesExact; rw [liveAt0_2_B t (fun h => h0 ((hcond0_0 t).mp h)) ((hcond0_1 t).mpr h1)], after0_2]
    rw [outsAt0_B V c t h0 h1]
    unfold out0_B_2 sout0_B_0; (try dsimp only)
    have hz : t.val ≠ 0 := by omega
    rw [PhiS0_castSucc V c t, PhiS0_pos V c _ _ hz]
    iintro ⟨⟨⟨HS0, Hoth⟩, Hg⟩, Ho, ⟨%d0, H0⟩, ⟨%d1, H1⟩, ⟨%d2, H2⟩⟩
    iapply ((kernelRun0_B c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_B_0 c _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 192 := N_0; omega), PhiA0_eq]
  iintro ⟨⟨HS0, Hoth⟩, Hg⟩
  isplitl [HS0 Hoth]
  · isplitl [HS0]
    · iexists _; iexact HS0
    iexact Hoth
  iexact Hg

end Cert.KernelIdeal.Hand

end
-- ==== Proof.FrameKI.Region1.lean ====
/-
  The attention region: 32 grid points, each handling 256 batch rows. The body reads its whole input block (the rows' q, k and v
  tables), computes the rows' attention outputs as one pure term, and stores them whole into the output block; it keeps nothing
  between points and has one control case, so the output block after the body is the canon of that one store.
-/
import proofs.«100182_j74002286510407_2_alg».proof.Proof.Gen.KernelIdeal.Launch
import proofs.«100182_j74002286510407_2_alg».proof.Proof.Gen.KernelIdeal.Skeleton
import proofs.«100182_j74002286510407_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds its block at every point, for any proof data over the entry arrays whose body leaves the block
    in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_in : Rect S256x3x32x128 := Rect.unit (s := S256x3x32x128) ![0, 0, 0, 0] S256x3x32x128.size inb_S256x3x32x128_S256x3x32x128_0_0_0_0
abbrev r1_out : Rect S256x4096 := Rect.unit (s := S256x4096) ![0, 0] S256x4096.size inb_S256x4096_S256x4096_0_0

/-- The output block after the body, from the input block: its one store as a piece. -/
def out1_1 (x0 : Vec F S256x3x32x128 .bf16) : Vec F S256x4096 .bf16 :=
  View.canon [⟨r1_out, k1_pay1 (View.ld x0 r1_in)⟩]

/-- The store is of the whole block, so it covers it. -/
theorem cover1_1 (p0 : Vec F S256x4096 .bf16) (y : S256x4096.Idx) :
    ∃ pc ∈ ([⟨r1_out, p0⟩] : List (View.Piece (Elt F) S256x4096 .bf16)), y ∈ pc.1.set :=
  View.cover_of_tiled [⟨r1_out, p0⟩] S256x4096.size (by rfl) y

/-! ## The body's triple -/

set_option maxHeartbeats 2000000 in
/-- The body on whole staging memrefs, the input's at contents `x0` and the output's at anything, runs to the continuation holding
    the input's as it was and the output's at `out1_1 x0`. -/
theorem sound_kernel1 (c : Dev nD) (E : Set ℕ) (i : grid1.Coords) (arg1 : Memref sig .tc .vmem S256x3x32x128 .bf16) (harg1 : arg1.IsWhole) (arg2 : Memref sig .tc .vmem S256x4096 .bf16) (harg2 : arg2.IsWhole)
    (x0 : Vec F S256x3x32x128 .bf16) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__attn_kernel i arg1 harg1 arg2 harg2) K := by
  simp only [cc1__attn_kernel_eq_skeleton]; unfold cc1__attn_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of the attention pipeline on core `c`: the arrays as the region finds them; after the body at a point the
    input's buffer at its block and the output's at `out1_1` of it; the class's invariant (the scoped rest and the generator
    register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the triple applies; the invariant and the core's dues pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameKI.Region2.lean ====
/-
  The second matrix product's region (the attention outputs times the permuted projection weights, plus the bias; tiled
  1024 × 1024 over a K axis of two 2048-blocks), run as a pipeline at any float instance.

  A grid point is (i, j, k) with k the fastest coordinate. At k = 0 the body zeroes the accumulator it keeps in scratch and adds
  the product of the point's two operand blocks into it; the output window is idle there. At k = 1 it adds the second product
  into what the point before left, adds the bias row (broadcast down the rows) and stores the sum into the output block. The bias
  block is fetched only when j changes, and is found in its staging buffer at every point all the same.
-/
import proofs.«100182_j74002286510407_2_alg».proof.Proof.Gen.KernelIdeal.Launch
import proofs.«100182_j74002286510407_2_alg».proof.Proof.Gen.KernelIdeal.Skeleton
import proofs.«100182_j74002286510407_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, for any proof data over the entry arrays whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the right operand. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the bias row, fetched only at the points where its block changes. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- "k = 0", as the body computes it from the grid coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

/-- "k = 1", the last K-block. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At k = 0 the output window is idle: the body stores nothing into it … -/
theorem idleAt2_3_A : ∀ t : Fin cfg2.N, cond2_0 (grid2.coords t) → ¬cond2_1 (grid2.coords t) → cfg2.idle 3 (grid2.coords t) = true := by decide +kernel
/-- … and the pipeline does not write its block back. -/
theorem noFlush2_3_A : ∀ t : Fin cfg2.N, cond2_0 (grid2.coords t) → ¬cond2_1 (grid2.coords t) → (cfg2.win 3).flush t = false := by decide +kernel
/-- At k = 1 it is live. -/
theorem liveAt2_3_B : ∀ t : Fin cfg2.N, ¬cond2_0 (grid2.coords t) → cond2_1 (grid2.coords t) → cfg2.idle 3 (grid2.coords t) = false := by decide +kernel

/-! ## The memrefs the body is called with -/

abbrev VO2_3 : View sig .tc .vmem S1024x1024 .f32 := (Memref.whole cc2_stg3_0 : Memref sig .tc .vmem S1024x1024 .f32).view
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x1024 .f32 := Memref.whole cc2_scratch0
abbrev VS2_0 : View sig .tc .vmem S1024x1024 .f32 := scM2_0.view

/-- The core's other scoped buffers (the earlier calls' staging buffers and accumulator), each whole at some contents: this
    region never touches them. -/
def other2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region's class invariant with the accumulator singled out: the accumulator at some contents, the other scoped buffers,
    the generator register at some state (separating conjunction commutes). -/
theorem PhiA2_eq (c : Dev nD) :
    (Pipeline.ΦA spec2 c : sProp 𝕄)
      = iprop(iprop((∃ d, owns (c : Thread nD τ) scM2_0 fullShare d) ∗ other2 (F := F) c) ∗ (∃ r, prngReg c r)) := by
  unfold Pipeline.ΦA other2; rw [scopedRest2_eq]; simp only [scM2_0, owns_whole]
  refine congrArg (fun X : sProp 𝕄 => iprop(X ∗ (∃ r, prngReg c r))) (Idealize.SL.BI.Entails.antisymm ?_ ?_)
  · show (_ : sProp 𝕄) ⊢ (_ : sProp 𝕄)
    iintro ⟨H1, H2, H3, H4, H5, H6, H7, H8, H9, H10, H11, HS⟩
    isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · show (_ : sProp 𝕄) ⊢ (_ : sProp 𝕄)
    iintro ⟨HS, H1, H2, H3, H4, H5, H6, H7, H8, H9, H10, H11⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS

/-! ## The body, case by case -/

set_option maxHeartbeats 2000000 in
/-- The body at a point with k = 0, on whole memrefs: the operands' and the bias row's blocks are left as they were, the idle
    output buffer is handed back untouched, and the accumulator — found at anything — ends with the pieces the run's stores wrote
    (the reset, then the first product added to it). The pieces are the witness the symbolic run finds. -/
noncomputable def kernelRun2_A (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x2048 .bf16) (x1 : Vec F S2048x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨[], ?_, fun xi3 E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 2000000 in
/-- The body at a point with k = 1: the accumulator is found at what the point before left (`xs0`), the second product is added to
    it, and the output buffer — found at anything — ends with the accumulator plus the bias row stored whole. -/
noncomputable def kernelRun2_B (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x2048 .bf16) (x1 : Vec F S2048x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__matmul_bias_kernel i arg3 harg3 arg4 harg4 arg5 harg5 arg6 harg6 arg7 harg7) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves -/

/-- At k = 0 nothing is stored into the output block: a placeholder nothing consults. -/
def out2_A_3 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x2048 .bf16) (x1 : Vec F S2048x1024 .bf16) (x2 : Vec F S1x1024 .f32) : Vec F S1024x1024 .f32 :=
  VO2_3.read (Elt F) (VO2_3.writes (Elt F) VO2_3.junk (kernelRun2_A c i arg3 harg3 arg4 harg4 arg5 harg5 arg6 harg6 arg7 harg7 hc0 hc1 x0 x1 x2).1)

theorem scover2_A_0 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x2048 .bf16) (x1 : Vec F S2048x1024 .bf16) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y

/-- The accumulator after a point with k = 0. -/
def sout2_A_0 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i) (x0 : Vec F S1024x2048 .bf16) (x1 : Vec F S2048x1024 .bf16) (x2 : Vec F S1x1024 .f32) : Vec F S1024x1024 .f32 :=
  VS2_0.read (Elt F) (VS2_0.writes (Elt F) VS2_0.junk (kernelRun2_A c i arg3 harg3 arg4 harg4 arg5 harg5 arg6 harg6 arg7 harg7 hc0 hc1 x0 x1 x2).2.1)

theorem cover2_B_3 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x2048 .bf16) (x1 : Vec F S2048x1024 .bf16) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).1, y ∈ pc.1.set :=
  View.cover_of_tiledL (kernelRun2_B c i arg3 harg3 arg4 harg4 arg5 harg5 arg6 harg6 arg7 harg7 hc0 hc1 x0 x1 x2 xs0).1 S1024x1024.size (by sl_kernel_rfl) y

/-- The output block after a point with k = 1. -/
def out2_B_3 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x2048 .bf16) (x1 : Vec F S2048x1024 .bf16) (x2 : Vec F S1x1024 .f32) (xs0 : Vec F S1024x1024 .f32) : Vec F S1024x1024 .f32 :=
  VO2_3.read (Elt F) (VO2_3.writes (Elt F) VO2_3.junk (kernelRun2_B c i arg3 harg3 arg4 harg4 arg5 harg5 arg6 harg6 arg7 harg7 hc0 hc1 x0 x1 x2 xs0).1)

theorem scover2_B_0 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x2048 .bf16) (x1 : Vec F S2048x1024 .bf16) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y

/-- The accumulator after a point with k = 1. -/
def sout2_B_0 (c : Dev nD) (i : grid2.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i) (x0 : Vec F S1024x2048 .bf16) (x1 : Vec F S2048x1024 .bf16) (x2 : Vec F S1x1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-! ## Point by point -/

/-- What the output block and the accumulator hold after the body at position `n`: an even position runs the k = 0 case on the
    point's input blocks, an odd one the k = 1 case on them and on the accumulator the position before left. -/
def outsAt2 (c : Dev nD) : (n : ℕ) → n < cfg2.N → Vec F S1024x1024 .f32 × Vec F S1024x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      if h1 : (n + 1) % 2 = 1 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
          sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 2 = 1 then
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        False.elim (by omega)

theorem outsAt2_A (c : Dev nD) (t : Fin cfg2.N) (h0 : t.val % 2 = 0) (h1 : ¬t.val % 2 = 1) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
      sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 2 = 0) (h1 : t.val % 2 = 1) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the accumulator at what the point
    before left in it, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ other2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ other2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ other2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the input memrefs hold their blocks; the parity of the point says which case it is in; the invariant
    hands the body the accumulator (at anything at k = 0, at what the point before left at k = 1) and takes it back at this
    point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2 = 0
  · have h1 : ¬t.val % 2 = 1 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, Hoth⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_A_0 c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have h1 : t.val % 2 = 1 := by omega
    rw [show (dat2 V c).leavesExact 3 t = owns (c : Thread nD τ) (ms2_3 t) fullShare ((dat2 V c).after 3 t) from by
      unfold Dat.leavesExact; rw [liveAt2_3_B t (fun h => h0 ((hcond2_0 t).mp h)) ((hcond2_1 t).mpr h1)], after2_3]
    rw [outsAt2_B V c t h0 h1]
    unfold out2_B_3 sout2_B_0; (try dsimp only)
    have hz : t.val ≠ 0 := by omega
    rw [PhiS2_castSucc V c t, PhiS2_pos V c _ _ hz]
    iintro ⟨⟨⟨HS0, Hoth⟩, Hg⟩, Ho, ⟨%d0, H0⟩, ⟨%d1, H1⟩, ⟨%d2, H2⟩, ⟨%d3, H3⟩⟩
    iapply ((kernelRun2_B c (grid2.coords t) _ _ _ _ _ _ _ _ _ _ (fun h => h0 ((hcond2_0 t).mp h)) ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover2_B_0 c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B_3 c _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, Hoth⟩, Hg⟩
  isplitl [HS0 Hoth]
  · isplitl [HS0]
    · iexists _; iexact HS0
    iexact Hoth
  iexact Hg

end Cert.KernelIdeal.Hand

end
-- ==== Proof.FrameKI.Run.lean ====
/-
  The whole program as a run: nine host operations, the first matrix product's region, one reshape, the attention region, the
  second matrix product's region. The buffer contents at each boundary are a fold from the launch memory — a host stretch applies
  its operations, a region replaces its arrays by what its pipeline leaves in them —, each region is a segment entered from and
  left at "every unscoped buffer at the boundary's contents", and every weakly fair execution of @main ends with every unscoped
  buffer at the last boundary's contents. The argument arrays are written by nothing on the way, so they end as launched; the
  result array ends at what the third region's write-backs leave in it.
-/
import proofs.«100182_j74002286510407_2_alg».proof.Proof.FrameKI.Region0
import proofs.«100182_j74002286510407_2_alg».proof.Proof.FrameKI.Region1
import proofs.«100182_j74002286510407_2_alg».proof.Proof.FrameKI.Region2
import proofs.«100182_j74002286510407_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the nine host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded in),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reshape (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (the inputs as entered, the output's write-backs folded in),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: its arrays at what the pipeline leaves (the inputs as entered, the output's write-backs folded in),
    every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-! ### The arguments end as launched: no host operation and no region writes one -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at
    some state. -/
abbrev Tₙ (c : Dev nD) : sProp 𝕄 := iprop(StableHlo.held (c : Thread nD τ) (Pipeline.ucRefs τ sig) (W5 m c) ∗ ∃ r, prngReg c r)

/-! ## The regions as segments -/

-- unification against the pinned configuration may unfold plain definitions in a metavariable's type
set_option backward.isDefEq.respectTransparency.types false in
/-- Region 0 over the thread state: entered from every unscoped buffer at `W1`, left at `W2`. Its arrays are split out
    of the unscoped buffers and put back at their exit contents; the generator register goes into the invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show Pipeline.ΦA spec0 c ⊢ (pdats m 0 c).Φ 0 from hin0 (V1 m) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (show (pdats m 0 c).Φ (Fin.last _) ⊢ Pipeline.ΦA spec0 c from hout0 (V1 m) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration may unfold plain definitions in a metavariable's type
set_option backward.isDefEq.respectTransparency.types false in
/-- Region 1 over the thread state: entered from every unscoped buffer at `W3`, left at `W4`. Its arrays are split out
    of the unscoped buffers and put back at their exit contents; the generator register goes into the invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification against the pinned configuration may unfold plain definitions in a metavariable's type
set_option backward.isDefEq.respectTransparency.types false in
/-- Region 2 over the thread state: entered from every unscoped buffer at `W4`, left at `W5`. Its arrays are split out
    of the unscoped buffers and put back at their exit contents; the generator register goes into the invariant and comes back;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show Pipeline.ΦA spec2 c ⊢ (pdats m 2 c).Φ 0 from hin2 (V4 m) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (show (pdats m 2 c).Φ (Fin.last _) ⊢ Pipeline.ΦA spec2 c from hout2 (V4 m) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The result array ends at what the third region's write-backs leave in it, and the four argument arrays as launched. -/
theorem run_main : θ_run defs (onTc (τ := τ) (main (F := F))) ⟨m, fun _ => 0, ρ⟩ (fun r => ∀ c : Dev nD,
      r.2.mem ((c.tc : Thread nD τ).loc main_v12) = (dat2 (V4 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_v12 (by decide))).trans (W5_arr m c 3),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c => (h c).2) (run_main m ρ)

end Cert.KernelIdeal.Hand

end
-- ==== Proof.AttnSpec.lean ====
/-
  The function both programs compute, one batch row at a time, over the extended reals.

  A row `x` of 4096 numbers is projected by the 12288 × 4096 matrix `wq` to 12288 numbers, read as three
  32 × 128 tables q, k, v (part p, head h, lane d sits at p·4096 + h·128 + d). Head h scores head g by
  the scalar product of q h and k g times one fixed scale; the 32 scores of a head are shifted by their
  maximum, exponentiated and divided by their sum, and the resulting weights mix the rows of v. The
  32 × 128 result o is flattened LANE-major (entry j holds o (j mod 32) (j div 32)) and multiplied by the
  rows of the 4096 × 4096 matrix `wp`, and the bias is added.

  The scale and the seed of the maximum are the two f32 words both programs carry; they are kept as
  words and never evaluated, since the same word stands on both sides.
-/
import Idealize.ShloMosaic.PureOps.Ideal

noncomputable section

namespace Cert.SelfAttn

open Idealize.ShloMosaic

/-- The scale of the scores, 128^(-1/2) rounded to f32, as the word both programs carry. -/
def scale : EReal := Ideal.ofBits .f32 0x3DB504F3#32

/-- The seed of both maxima: the f32 word of −∞. -/
def seed : EReal := Ideal.ofBits .f32 0xFF800000#32

/-- How much head `h` attends to head `g`: the scalar product of their q and k rows, scaled. -/
def score (q k : Fin 32 → Fin 128 → EReal) (h g : Fin 32) : EReal :=
  (∑ d : Fin 128, q h d * k g d) * scale

/-- The largest of a head's 32 scores (folded from the seed). -/
def rowMax (s : Fin 32 → EReal) : EReal := (Finset.univ : Finset (Fin 32)).fold max seed s

/-- A score shifted by the row's maximum and exponentiated. -/
def shifted (s : Fin 32 → EReal) (g : Fin 32) : EReal := Ideal.exp (s g - rowMax s)

/-- The softmax weight of entry `g` of a row of scores. -/
def weight (s : Fin 32 → EReal) (g : Fin 32) : EReal :=
  Ideal.div (shifted s g) (∑ g' : Fin 32, shifted s g')

/-- One row of attention over the heads: head `h`'s output lane `d` mixes the rows of `v`. -/
def attend (q k v : Fin 32 → Fin 128 → EReal) (h : Fin 32) (d : Fin 128) : EReal :=
  ∑ g : Fin 32, weight (score q k h) g * v g d

/-- The qkv projection of one row: entry `n` is the scalar product with row `n` of `wq`. -/
def proj (x : Fin 4096 → EReal) (wq : Fin 12288 → Fin 4096 → EReal) (n : Fin 12288) : EReal :=
  ∑ k : Fin 4096, x k * wq n k

/-- The flat position of part `p`, head `h`, lane `d` among the 12288 projected numbers. -/
def slot (p : Fin 3) (h : Fin 32) (d : Fin 128) : Fin 12288 :=
  ⟨p.val * 4096 + h.val * 128 + d.val, by omega⟩

/-- Part `p` (0 = q, 1 = k, 2 = v) of a projected row as a 32 × 128 table. -/
def part (y : Fin 12288 → EReal) (p : Fin 3) (h : Fin 32) (d : Fin 128) : EReal := y (slot p h d)

/-- The attention output of one input row. -/
def heads (x : Fin 4096 → EReal) (wq : Fin 12288 → Fin 4096 → EReal) (h : Fin 32) (d : Fin 128) : EReal :=
  attend (part (proj x wq) 0) (part (proj x wq) 1) (part (proj x wq) 2) h d

/-- Head and lane of flat position `j` in the LANE-major flattening (j = d·32 + h). -/
def headOf (j : Fin 4096) : Fin 32 := ⟨j.val % 32, Nat.mod_lt _ (by norm_num)⟩
def laneOf (j : Fin 4096) : Fin 128 := ⟨j.val / 32, by have := j.isLt; omega⟩

/-- The output row: the lane-major flattening of `o` against row `c` of `wp`, plus the bias. -/
def outRow (o : Fin 32 → Fin 128 → EReal) (wp : Fin 4096 → Fin 4096 → EReal) (b : Fin 4096 → EReal)
    (c : Fin 4096) : EReal :=
  (∑ j : Fin 4096, o (headOf j) (laneOf j) * wp c j) + b c

/-- THE SPECIFICATION: entry (r, c) of the result from the four argument arrays. -/
def G (x : Fin 8192 → Fin 4096 → EReal) (wq : Fin 12288 → Fin 4096 → EReal)
    (wp : Fin 4096 → Fin 4096 → EReal) (b : Fin 4096 → EReal) (r : Fin 8192) (c : Fin 4096) : EReal :=
  outRow (heads (x r) wq) wp b c

end Cert.SelfAttn

end
-- ==== Proof.KernelAlgebra.lean ====
/-
  The algebra between the kernel program's arrangement and the specification's.

  Two facts about finite sums over the extended reals, which need only that addition is commutative and
  associative: an accumulator reset to zero and then fed two halves of a contraction holds the whole
  contraction; and a sum over the head-major flattening (position h·128 + d) is the sum over the lane-major
  one (position d·32 + h) once the second factor is read at the permuted position.

  Then the host operations the kernel program applies to its arguments before and between its pallas
  calls, each read at an index: the format change is the identity on extended reals; the transposes swap
  coordinates; the reshape–transpose–reshape of the transposed output weights sends row h·128 + d to
  column d·32 + h of the weights; the bias and the qkv result are re-viewed with the same row-major position.
-/
import proofs.«100182_j74002286510407_2_alg».proof.Proof.Gen.KernelIdeal.Launch
import proofs.«100182_j74002286510407_2_alg».proof.Proof.AttnSpec
import Idealize.ShloMosaic.Lib.Pipeline.Value
import Idealize.ShloMosaic.Lib.ValueIdx

noncomputable section

namespace Cert.SelfAttn.Alg

open Idealize.ShloMosaic Idealize.ShloMosaic.ValueIdx Cert.KernelIdeal Cert.KernelIdeal.Gen Cert.SelfAttn

/-! ## Pure sums -/

/-- An accumulator reset to zero, then two halves of a contraction added one after the other, is the
    whole contraction. -/
theorem two_blocks (f : Fin 4096 → EReal) :
    (0 + ∑ k : Fin 2048, f ⟨k.val, by omega⟩) + ∑ k : Fin 2048, f ⟨2048 + k.val, by omega⟩ = ∑ k : Fin 4096, f k := by
  rw [zero_add]
  exact (Fin.sum_univ_add (a := 2048) (b := 2048) f).symm

/-- The bijection of the 4096 flat positions that sends head-major h·128 + d to lane-major d·32 + h. -/
def swapPos : Fin 4096 ≃ Fin 4096 where
  toFun j' := ⟨(j'.val % 128) * 32 + j'.val / 128, by omega⟩
  invFun j := ⟨(j.val % 32) * 128 + j.val / 32, by omega⟩
  left_inv j' := Fin.ext (by show ((j'.val % 128) * 32 + j'.val / 128) % 32 * 128 + ((j'.val % 128) * 32 + j'.val / 128) / 32 = j'.val; omega)
  right_inv j := Fin.ext (by show ((j.val % 32) * 128 + j.val / 32) % 128 * 32 + ((j.val % 32) * 128 + j.val / 32) / 128 = j.val; omega)

/-- A sum over the head-major positions, the second factor read at the lane-major position of the same
    (head, lane), is the sum over the lane-major positions. -/
theorem flatten_swap (o : Fin 32 → Fin 128 → EReal) (w : Fin 4096 → EReal) :
    ∑ j' : Fin 4096, o ⟨j'.val / 128, by omega⟩ ⟨j'.val % 128, Nat.mod_lt _ (by norm_num)⟩
        * w ⟨(j'.val % 128) * 32 + j'.val / 128, by omega⟩
      = ∑ j : Fin 4096, o (headOf j) (laneOf j) * w j := by
  refine Fintype.sum_equiv swapPos _ _ fun j' => ?_
  have hh : headOf (swapPos j') = ⟨j'.val / 128, by omega⟩ :=
    Fin.ext (by show ((j'.val % 128) * 32 + j'.val / 128) % 32 = j'.val / 128; omega)
  have hl : laneOf (swapPos j') = ⟨j'.val % 128, Nat.mod_lt _ (by norm_num)⟩ :=
    Fin.ext (by show ((j'.val % 128) * 32 + j'.val / 128) / 32 = j'.val % 128; omega)
  rw [hh, hl]
  rfl

/-! ## The host operations read at an index -/

/-- (a) The change of format is the identity on extended reals, at every shape. -/
theorem truncf_id {s : Shape} (x : FVec Ideal s .f32) :
    (truncf .bf16 x bitsLt_bf16_f32 : FVec Ideal s .bf16) = x := rfl

/-- (b) The transposed qkv weights at (k, n) are the weights at (n, k). -/
theorem wqT_at {α : Type} (x1 : S12288x4096.Idx → α) (k : Fin 4096) (n : Fin 12288) :
    transpose S4096x12288 [1, 0] x1 transposes_S12288x4096_S4096x12288_1_0 (ix2 k n) = x1 (ix2 n k) :=
  transpose_apply [1, 0] x1 transposes_S12288x4096_S4096x12288_1_0 (ix2 k n) (ix2 n k) (fun b => match b with
    | ⟨0, _⟩ => rfl
    | ⟨1, _⟩ => rfl)

/-- The transposed output weights at (a, b) are the weights at (b, a). -/
theorem wpT_at {α : Type} (x2 : S4096x4096.Idx → α) (a b : Fin 4096) :
    transpose S4096x4096 [1, 0] x2 transposes_S4096x4096_S4096x4096_1_0 (ix2 a b) = x2 (ix2 b a) :=
  transpose_apply [1, 0] x2 transposes_S4096x4096_S4096x4096_1_0 (ix2 a b) (ix2 b a) (fun b' => match b' with
    | ⟨0, _⟩ => rfl
    | ⟨1, _⟩ => rfl)

/-- (c) The permuted output weights: the transposed weights viewed [128, 32, 4096], their first two axes
    swapped, viewed [4096, 4096] again. Row h·128 + d of the result is row d·32 + h of the transposed
    weights, that is column d·32 + h of the weights. -/
theorem wpPerm_at {α : Type} (x2 : S4096x4096.Idx → α) (j' c : Fin 4096) :
    shapeCast S4096x4096
        (transpose S32x128x4096 [1, 0, 2]
          (shapeCast S128x32x4096 (transpose S4096x4096 [1, 0] x2 transposes_S4096x4096_S4096x4096_1_0)
            shapeCasts_S4096x4096_S128x32x4096)
          transposes_S128x32x4096_S32x128x4096_1_0_2)
        shapeCasts_S32x128x4096_S4096x4096 (ix2 j' c)
      = x2 (ix2 c ⟨(j'.val % 128) * 32 + j'.val / 128, by omega⟩) := by
  have hj := j'.isLt
  have hc := c.isLt
  refine (shapeCast_apply _ shapeCasts_S32x128x4096_S4096x4096 (ix2 j' c)
    (ix3 (⟨j'.val / 128, by omega⟩ : Fin 32) (⟨j'.val % 128, by omega⟩ : Fin 128) c)
    (by rw [Shape.rowMajor_val_three, Shape.rowMajor_val_two]
        show (j'.val / 128 * 128 + j'.val % 128) * 4096 + c.val = j'.val * 4096 + c.val; omega)).trans ?_
  refine (transpose_apply [1, 0, 2] _ transposes_S128x32x4096_S32x128x4096_1_0_2
    (ix3 (⟨j'.val / 128, by omega⟩ : Fin 32) (⟨j'.val % 128, by omega⟩ : Fin 128) c)
    (ix3 (⟨j'.val % 128, by omega⟩ : Fin 128) (⟨j'.val / 128, by omega⟩ : Fin 32) c) (fun b => match b with
      | ⟨0, _⟩ => rfl
      | ⟨1, _⟩ => rfl
      | ⟨2, _⟩ => rfl)).trans ?_
  refine (shapeCast_apply _ shapeCasts_S4096x4096_S128x32x4096
    (ix3 (⟨j'.val % 128, by omega⟩ : Fin 128) (⟨j'.val / 128, by omega⟩ : Fin 32) c)
    (ix2 (⟨(j'.val % 128) * 32 + j'.val / 128, by omega⟩ : Fin 4096) c)
    (by rw [Shape.rowMajor_val_two, Shape.rowMajor_val_three]; rfl)).trans ?_
  exact wpT_at x2 _ c

/-- (d) The bias viewed [1, 4096]. -/
theorem bias_at {α : Type} (x3 : S4096.Idx → α) (c : Fin 4096) :
    shapeCast S1x4096 x3 shapeCasts_S4096_S1x4096 (ix2 (0 : Fin 1) c) = x3 (ix1 c) :=
  shapeCast_apply x3 shapeCasts_S4096_S1x4096 (ix2 (0 : Fin 1) c) (ix1 c)
    (by rw [Shape.rowMajor_val_one, Shape.rowMajor_val_two]
        show c.val = 0 * 4096 + c.val; omega)

/-- (e) The qkv result viewed [8192, 3, 32, 128]: part p, head h, lane d of row r is entry `slot p h d` of the row. -/
theorem qkvView_at {α : Type} (y : S8192x12288.Idx → α) (r : Fin 8192) (p : Fin 3) (h : Fin 32) (d : Fin 128) :
    shapeCast S8192x3x32x128 y shapeCasts_S8192x12288_S8192x3x32x128 (ix4 r p h d) = y (ix2 r (slot p h d)) :=
  shapeCast_apply y shapeCasts_S8192x12288_S8192x3x32x128 (ix4 r p h d) (ix2 r (slot p h d))
    (by rw [Shape.rowMajor_val_two, Shape.rowMajor_val_four]
        have hr := r.isLt; have hp := p.isLt; have hh := h.isLt; have hd := d.isLt
        show r.val * 12288 + (p.val * 4096 + h.val * 128 + d.val) = ((r.val * 3 + p.val) * 32 + h.val) * 128 + d.val; omega)

end Cert.SelfAttn.Alg

end
-- ==== Proof.ValueKI.HostReads.lean ====
/-
  What the regions find in their operand arrays, at the ideal instance, in terms of the four argument arrays: the first product's
  operands are x and the transpose of the qkv weights (a change of float format is the identity over the extended reals); the
  attention region reads the first product's result viewed [8192, 3, 32, 128]; the second product's right operand is the
  projection weights transposed with their rows permuted from lane-major to head-major order, and its bias row is the bias
  vector viewed [1, 4096] — both computed before the first region and written by nothing afterwards.
-/
import proofs.«100182_j74002286510407_2_alg».proof.Proof.FrameKI.Run
import proofs.«100182_j74002286510407_2_alg».proof.Proof.KernelAlgebra

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Cert.SelfAttn Cert.SelfAttn.Alg

variable (m : (ℓ : Loc nD τ sig) → Buf (Elt Ideal) ℓ)

/-- The first product's left operand is x. -/
theorem V1_v0 (c : Dev nD) :
    (Hand.V1 m c main_v0 : S8192x4096.Idx → EReal) = truncf (F := Ideal) .bf16 (m ((c : Thread nD τ).loc main_arg0)) bitsLt_bf16_f32 := by
  show StableHlo.after hostOps0 (fun b => m (c, b)) (Proc.devRef .tc main_v0) = _
  after_results <;> rfl

/-- Its right operand is the qkv weights transposed. -/
theorem V1_v2 (c : Dev nD) :
    (Hand.V1 m c main_v2 : S4096x12288.Idx → EReal)
      = truncf (F := Ideal) .bf16 (transpose S4096x12288 [1, 0] (m ((c : Thread nD τ).loc main_arg1)) transposes_S12288x4096_S4096x12288_1_0) bitsLt_bf16_f32 := by
  show StableHlo.after hostOps0 (fun b => m (c, b)) (Proc.devRef .tc main_v2) = _
  after_results <;> rfl

/-- The second product's right operand: the projection weights transposed, rows permuted to head-major order. -/
theorem V1_v7 (c : Dev nD) :
    (Hand.V1 m c main_v7 : S4096x4096.Idx → EReal)
      = truncf (F := Ideal) .bf16 (shapeCast S4096x4096 (transpose S32x128x4096 [1, 0, 2] (shapeCast S128x32x4096 (transpose S4096x4096 [1, 0] (m ((c : Thread nD τ).loc main_arg2)) transposes_S4096x4096_S4096x4096_1_0) shapeCasts_S4096x4096_S128x32x4096) transposes_S128x32x4096_S32x128x4096_1_0_2) shapeCasts_S32x128x4096_S4096x4096) bitsLt_bf16_f32 := by
  show StableHlo.after hostOps0 (fun b => m (c, b)) (Proc.devRef .tc main_v7) = _
  after_results <;> rfl

/-- The bias row. -/
theorem V1_v8 (c : Dev nD) :
    (Hand.V1 m c main_v8 : S1x4096.Idx → EReal) = shapeCast S1x4096 (m ((c : Thread nD τ).loc main_arg3)) shapeCasts_S4096_S1x4096 := by
  show StableHlo.after hostOps0 (fun b => m (c, b)) (Proc.devRef .tc main_v8) = _
  after_results <;> rfl

/-- The attention region's operand: the first product's result viewed [8192, 3, 32, 128]. -/
theorem V3_v10 (c : Dev nD) :
    (Hand.V3 m c main_v10 : S8192x3x32x128.Idx → EReal) = shapeCast S8192x3x32x128 (W2 m c (Proc.devRef .tc main_v9)) shapeCasts_S8192x12288_S8192x3x32x128 := by
  show StableHlo.after hostOps1 (W2 m c) (Proc.devRef .tc main_v10) = _
  after_results <;> rfl

/-- Nothing between the first region's entry and the third's writes the permuted weights or the bias row. -/
theorem V4_keep (c : Dev nD) (b : Ref sig .tc) (h4 : ∀ w, Pipeline.arrRef spec1 w ≠ b) (h1 : b ∉ hostOps1_W) (h0 : ∀ w, Pipeline.arrRef spec0 w ≠ b) :
    Hand.V4 m c b = Hand.V1 m c b :=
  calc W4 m c (Proc.devRef .tc b)
    _ = W3 m c (Proc.devRef .tc b) := W4_of_ne m c b h4
    _ = W2 m c (Proc.devRef .tc b) := StableHlo.after_of_writes_sub hostOps1 _ hostOps1_writes h1
    _ = W1 m c (Proc.devRef .tc b) := W2_of_ne m c b h0

theorem V4_v7 (c : Dev nD) : Hand.V4 m c main_v7 = Hand.V1 m c main_v7 := V4_keep m c main_v7 (by decide) (by decide) (by decide)
theorem V4_v8 (c : Dev nD) : Hand.V4 m c main_v8 = Hand.V1 m c main_v8 := V4_keep m c main_v8 (by decide) (by decide) (by decide)

/-- The second product's left operand is what the attention region leaves. -/
theorem V4_v11 (c : Dev nD) : Hand.V4 m c main_v11 = (dat1 (Hand.V3 m) c).arrAt 1 cfg1.N := W4_arr m c 1

/-- The attention region's operand array is what the first region leaves, viewed. -/
theorem W2_v9 (c : Dev nD) : W2 m c (Proc.devRef .tc main_v9) = (dat0 (Hand.V1 m) c).arrAt 2 cfg0.N := W2_arr m c 2

end Cert.KernelIdeal.HandValue

end
-- ==== Proof.BlockMath.lean ====
/-
  The arithmetic of the three kernels' bodies, read entry by entry over the extended reals.

  Each body stores a few pure values computed from the blocks it loads. This module reads every such value at explicit
  coordinates, as a function of the loaded blocks (variables of the literal vector types):
  * the two matmul kernels reset an accumulator to zero, add to it the product of a 1024 × 2048 tile and a 2048 × 1024
    tile (entry (p, q) gains ∑ k, a (p, k) · b (k, q)), and at the end store the accumulator as it is, or with the bias
    row added;
  * the attention kernel computes, for row b of the block, head h and lane d, one row of attention over the heads
    (`Cert.SelfAttn.attend`) from the three parts q, k, v of the loaded block's row b, and stores it at the flat
    position h·128 + d.
  The scale and the seed of the maximum stay the words the program carries; only the zero word is evaluated.
-/
import proofs.«100182_j74002286510407_2_alg».proof.Proof.Gen.KernelIdeal.Skeleton
import proofs.«100182_j74002286510407_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.SelfAttn.Block

open Idealize.ShloMosaic Idealize.ShloMosaic.ValueIdx Cert.KernelIdeal Cert.KernelIdeal.Gen

/-! ## The plain product of the two matmul kernels -/

theorem mm_lhs_0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem mm_lhs_1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem mm_rhs_0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem mm_rhs_1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The 1024 × 2048 by 2048 × 1024 product into the zero accumulator, entry by entry. -/
theorem mm_apply (a : FVec Ideal S1024x2048 .bf16) (b : FVec Ideal S2048x1024 .bf16) (p q : Fin 1024) :
    matmul dot_S1024x2048_S2048x1024_S1024x1024_1_0_0_1_n_n none a b (constant (F := Ideal) S1024x1024 .f32 0x00000000#32) (ix2 p q)
      = ∑ k : Fin 2048, a (ix2 p k) * b (ix2 k q) := by
  simp only [matmul]
  rw [Ideal.matmul_constant_zero_apply, ← Equiv.sum_comp (contrEquiv1 dot_S1024x2048_S2048x1024_S1024x1024_1_0_0_1_n_n 2048 rfl rfl).symm]
  refine Finset.sum_congr rfl fun k _ => ?_
  have hk := contrEquiv1_symm_val dot_S1024x2048_S2048x1024_S1024x1024_1_0_0_1_n_n 2048 rfl rfl k
  have el : dot_S1024x2048_S2048x1024_S1024x1024_1_0_0_1_n_n.lhsIdx (ix2 p q) ((contrEquiv1 dot_S1024x2048_S2048x1024_S1024x1024_1_0_0_1_n_n 2048 rfl rfl).symm k) = ix2 p k := funext fun c => Fin.ext (by
    match c with
    | ⟨0, _⟩ => exact mm_lhs_0 _ _
    | ⟨1, _⟩ => exact (mm_lhs_1 _ _).trans hk)
  have er : dot_S1024x2048_S2048x1024_S1024x1024_1_0_0_1_n_n.rhsIdx (ix2 p q) ((contrEquiv1 dot_S1024x2048_S2048x1024_S1024x1024_1_0_0_1_n_n 2048 rfl rfl).symm k) = ix2 k q := funext fun c => Fin.ext (by
    match c with
    | ⟨0, _⟩ => exact (mm_rhs_0 _ _).trans hk
    | ⟨1, _⟩ => exact mm_rhs_1 _ _)
  rw [el, er]

/-! ## The two matmul kernels' bodies -/

/-- The accumulator's reset value: the zero splat. -/
theorem acc_reset : (k0_pay1 (F := Ideal) : S1024x1024.Idx → EReal) = fun _ => 0 := by
  unfold k0_pay1
  funext i
  rw [shapeCast_self]
  exact Ideal.ofBits_zero_f32

theorem acc_reset2 : (k2_pay1 (F := Ideal) : S1024x1024.Idx → EReal) = fun _ => 0 := by
  unfold k2_pay1
  funext i
  rw [shapeCast_self]
  exact Ideal.ofBits_zero_f32

/-- One accumulation step: the block product of the two loaded tiles is added to the accumulator. -/
theorem acc_step (a : FVec Ideal S1024x2048 .bf16) (b : FVec Ideal S2048x1024 .bf16) (acc : FVec Ideal S1024x1024 .f32) (p q : Fin 1024) :
    k0_pay2 (F := Ideal) a b acc (ix2 p q) = acc (ix2 p q) + ∑ k : Fin 2048, a (ix2 p k) * b (ix2 k q) := by
  unfold k0_pay2
  simp only [shapeCast_self]
  rw [addf_apply, mm_apply]

theorem acc_step2 (a : FVec Ideal S1024x2048 .bf16) (b : FVec Ideal S2048x1024 .bf16) (acc : FVec Ideal S1024x1024 .f32) (p q : Fin 1024) :
    k2_pay2 (F := Ideal) a b acc (ix2 p q) = acc (ix2 p q) + ∑ k : Fin 2048, a (ix2 p k) * b (ix2 k q) := by
  unfold k2_pay2
  simp only [shapeCast_self]
  rw [addf_apply, mm_apply]

/-- The first kernel's result: the accumulator itself (narrowing is the identity on extended reals). -/
theorem out_cast (acc : FVec Ideal S1024x1024 .f32) : (k0_pay3 (F := Ideal) acc : S1024x1024.Idx → EReal) = acc := rfl

/-- The last kernel's result: the accumulator plus the bias row. -/
theorem out_bias (acc : FVec Ideal S1024x1024 .f32) (bias : FVec Ideal S1x1024 .f32) (p q : Fin 1024) :
    k2_pay3 (F := Ideal) acc bias (ix2 p q) = acc (ix2 p q) + bias (ix2 (0 : Fin 1) q) := by
  unfold k2_pay3
  simp only [shapeCast_self]
  rw [addf_apply, broadcastTo_1b_ab_apply]

/-! ## The attention kernel, operation by operation

Every lemma reads one operation of the kernel at explicit coordinates: `b` the row of the block, `h` and `g` heads,
`d` a lane. -/

/-! ### The two batched products -/

theorem qk_lhs_0 (i : S256x32x32.Idx) (q : dot_S256x32x128_S256x32x128_S256x32x32_2_2_1_1_0_0.contr.Idx) :
    (dot_S256x32x128_S256x32x128_S256x32x32_2_2_1_1_0_0.lhsIdx i q 0).val = (i 0).val := by
  unfold DotDims.lhsIdx
  rw [dif_pos (show (0 : Fin S256x32x128.rank) ∈ dot_S256x32x128_S256x32x128_S256x32x32_2_2_1_1_0_0.lhsBatch by decide)]
  rfl
theorem qk_lhs_1 (i : S256x32x32.Idx) (q : dot_S256x32x128_S256x32x128_S256x32x32_2_2_1_1_0_0.contr.Idx) :
    (dot_S256x32x128_S256x32x128_S256x32x32_2_2_1_1_0_0.lhsIdx i q 1).val = (i 1).val := by
  unfold DotDims.lhsIdx
  rw [dif_neg (show ¬(1 : Fin S256x32x128.rank) ∈ dot_S256x32x128_S256x32x128_S256x32x32_2_2_1_1_0_0.lhsBatch by decide), dif_pos (show (1 : Fin S256x32x128.rank) ∈ dot_S256x32x128_S256x32x128_S256x32x32_2_2_1_1_0_0.lhsNonContracting by decide)]
  rfl
theorem qk_lhs_2 (i : S256x32x32.Idx) (q : dot_S256x32x128_S256x32x128_S256x32x32_2_2_1_1_0_0.contr.Idx) :
    (dot_S256x32x128_S256x32x128_S256x32x32_2_2_1_1_0_0.lhsIdx i q 2).val = (q ⟨0, by decide⟩).val :=
  dot_S256x32x128_S256x32x128_S256x32x32_2_2_1_1_0_0.lhsIdx_val_of_single rfl i q
theorem qk_rhs_0 (i : S256x32x32.Idx) (q : dot_S256x32x128_S256x32x128_S256x32x32_2_2_1_1_0_0.contr.Idx) :
    (dot_S256x32x128_S256x32x128_S256x32x32_2_2_1_1_0_0.rhsIdx i q 0).val = (i 0).val := by
  unfold DotDims.rhsIdx
  rw [dif_pos (show (0 : Fin S256x32x128.rank) ∈ dot_S256x32x128_S256x32x128_S256x32x32_2_2_1_1_0_0.rhsBatch by decide)]
  rfl
theorem qk_rhs_1 (i : S256x32x32.Idx) (q : dot_S256x32x128_S256x32x128_S256x32x32_2_2_1_1_0_0.contr.Idx) :
    (dot_S256x32x128_S256x32x128_S256x32x32_2_2_1_1_0_0.rhsIdx i q 1).val = (i 2).val := by
  unfold DotDims.rhsIdx
  rw [dif_neg (show ¬(1 : Fin S256x32x128.rank) ∈ dot_S256x32x128_S256x32x128_S256x32x32_2_2_1_1_0_0.rhsBatch by decide), dif_pos (show (1 : Fin S256x32x128.rank) ∈ dot_S256x32x128_S256x32x128_S256x32x32_2_2_1_1_0_0.rhsNonContracting by decide)]
  rfl
theorem qk_rhs_2 (i : S256x32x32.Idx) (q : dot_S256x32x128_S256x32x128_S256x32x32_2_2_1_1_0_0.contr.Idx) :
    (dot_S256x32x128_S256x32x128_S256x32x32_2_2_1_1_0_0.rhsIdx i q 2).val = (q ⟨0, by decide⟩).val :=
  dot_S256x32x128_S256x32x128_S256x32x32_2_2_1_1_0_0.rhsIdx_val_of_single rfl i q

/-- The scores: row `b`, head `h` against head `g` is the scalar product of the two lanes' rows. -/
theorem qk_apply (q k : FVec Ideal S256x32x128 .bf16) (b : Fin 256) (h g : Fin 32) :
    matmul dot_S256x32x128_S256x32x128_S256x32x32_2_2_1_1_0_0 none q k (constant (F := Ideal) S256x32x32 .f32 0x00000000#32) (ix3 b h g)
      = ∑ d : Fin 128, q (ix3 b h d) * k (ix3 b g d) := by
  simp only [matmul]
  rw [Ideal.matmul_constant_zero_apply, ← Equiv.sum_comp (contrEquiv1 dot_S256x32x128_S256x32x128_S256x32x32_2_2_1_1_0_0 128 rfl rfl).symm]
  refine Finset.sum_congr rfl fun d _ => ?_
  have hd := contrEquiv1_symm_val dot_S256x32x128_S256x32x128_S256x32x32_2_2_1_1_0_0 128 rfl rfl d
  have el : dot_S256x32x128_S256x32x128_S256x32x32_2_2_1_1_0_0.lhsIdx (ix3 b h g) ((contrEquiv1 dot_S256x32x128_S256x32x128_S256x32x32_2_2_1_1_0_0 128 rfl rfl).symm d) = ix3 b h d := funext fun c => Fin.ext (by
    match c with
    | ⟨0, _⟩ => exact qk_lhs_0 _ _
    | ⟨1, _⟩ => exact qk_lhs_1 _ _
    | ⟨2, _⟩ => exact (qk_lhs_2 _ _).trans hd)
  have er : dot_S256x32x128_S256x32x128_S256x32x32_2_2_1_1_0_0.rhsIdx (ix3 b h g) ((contrEquiv1 dot_S256x32x128_S256x32x128_S256x32x32_2_2_1_1_0_0 128 rfl rfl).symm d) = ix3 b g d := funext fun c => Fin.ext (by
    match c with
    | ⟨0, _⟩ => exact qk_rhs_0 _ _
    | ⟨1, _⟩ => exact qk_rhs_1 _ _
    | ⟨2, _⟩ => exact (qk_rhs_2 _ _).trans hd)
  rw [el, er]

theorem pv_lhs_0 (i : S256x32x128.Idx) (q : dot_S256x32x32_S256x32x128_S256x32x128_2_1_1_2_0_0.contr.Idx) :
    (dot_S256x32x32_S256x32x128_S256x32x128_2_1_1_2_0_0.lhsIdx i q 0).val = (i 0).val := by
  unfold DotDims.lhsIdx
  rw [dif_pos (show (0 : Fin S256x32x32.rank) ∈ dot_S256x32x32_S256x32x128_S256x32x128_2_1_1_2_0_0.lhsBatch by decide)]
  rfl
theorem pv_lhs_1 (i : S256x32x128.Idx) (q : dot_S256x32x32_S256x32x128_S256x32x128_2_1_1_2_0_0.contr.Idx) :
    (dot_S256x32x32_S256x32x128_S256x32x128_2_1_1_2_0_0.lhsIdx i q 1).val = (i 1).val := by
  unfold DotDims.lhsIdx
  rw [dif_neg (show ¬(1 : Fin S256x32x32.rank) ∈ dot_S256x32x32_S256x32x128_S256x32x128_2_1_1_2_0_0.lhsBatch by decide), dif_pos (show (1 : Fin S256x32x32.rank) ∈ dot_S256x32x32_S256x32x128_S256x32x128_2_1_1_2_0_0.lhsNonContracting by decide)]
  rfl
theorem pv_lhs_2 (i : S256x32x128.Idx) (q : dot_S256x32x32_S256x32x128_S256x32x128_2_1_1_2_0_0.contr.Idx) :
    (dot_S256x32x32_S256x32x128_S256x32x128_2_1_1_2_0_0.lhsIdx i q 2).val = (q ⟨0, by decide⟩).val :=
  dot_S256x32x32_S256x32x128_S256x32x128_2_1_1_2_0_0.lhsIdx_val_of_single rfl i q
theorem pv_rhs_0 (i : S256x32x128.Idx) (q : dot_S256x32x32_S256x32x128_S256x32x128_2_1_1_2_0_0.contr.Idx) :
    (dot_S256x32x32_S256x32x128_S256x32x128_2_1_1_2_0_0.rhsIdx i q 0).val = (i 0).val := by
  unfold DotDims.rhsIdx
  rw [dif_pos (show (0 : Fin S256x32x128.rank) ∈ dot_S256x32x32_S256x32x128_S256x32x128_2_1_1_2_0_0.rhsBatch by decide)]
  rfl
theorem pv_rhs_1 (i : S256x32x128.Idx) (q : dot_S256x32x32_S256x32x128_S256x32x128_2_1_1_2_0_0.contr.Idx) :
    (dot_S256x32x32_S256x32x128_S256x32x128_2_1_1_2_0_0.rhsIdx i q 1).val = (q ⟨0, by decide⟩).val :=
  dot_S256x32x32_S256x32x128_S256x32x128_2_1_1_2_0_0.rhsIdx_val_of_single rfl i q
theorem pv_rhs_2 (i : S256x32x128.Idx) (q : dot_S256x32x32_S256x32x128_S256x32x128_2_1_1_2_0_0.contr.Idx) :
    (dot_S256x32x32_S256x32x128_S256x32x128_2_1_1_2_0_0.rhsIdx i q 2).val = (i 2).val := by
  unfold DotDims.rhsIdx
  rw [dif_neg (show ¬(2 : Fin S256x32x128.rank) ∈ dot_S256x32x32_S256x32x128_S256x32x128_2_1_1_2_0_0.rhsBatch by decide), dif_pos (show (2 : Fin S256x32x128.rank) ∈ dot_S256x32x32_S256x32x128_S256x32x128_2_1_1_2_0_0.rhsNonContracting by decide)]
  rfl

/-- The mixing: row `b`, head `h`, lane `d` sums the weights of head `h` against the lane `d` of every head's v row. -/
theorem pv_apply (w : FVec Ideal S256x32x32 .bf16) (v : FVec Ideal S256x32x128 .bf16) (b : Fin 256) (h : Fin 32) (d : Fin 128) :
    matmul dot_S256x32x32_S256x32x128_S256x32x128_2_1_1_2_0_0 none w v (constant (F := Ideal) S256x32x128 .f32 0x00000000#32) (ix3 b h d)
      = ∑ g : Fin 32, w (ix3 b h g) * v (ix3 b g d) := by
  simp only [matmul]
  rw [Ideal.matmul_constant_zero_apply, ← Equiv.sum_comp (contrEquiv1 dot_S256x32x32_S256x32x128_S256x32x128_2_1_1_2_0_0 32 rfl rfl).symm]
  refine Finset.sum_congr rfl fun g _ => ?_
  have hg := contrEquiv1_symm_val dot_S256x32x32_S256x32x128_S256x32x128_2_1_1_2_0_0 32 rfl rfl g
  have el : dot_S256x32x32_S256x32x128_S256x32x128_2_1_1_2_0_0.lhsIdx (ix3 b h d) ((contrEquiv1 dot_S256x32x32_S256x32x128_S256x32x128_2_1_1_2_0_0 32 rfl rfl).symm g) = ix3 b h g := funext fun c => Fin.ext (by
    match c with
    | ⟨0, _⟩ => exact pv_lhs_0 _ _
    | ⟨1, _⟩ => exact pv_lhs_1 _ _
    | ⟨2, _⟩ => exact (pv_lhs_2 _ _).trans hg)
  have er : dot_S256x32x32_S256x32x128_S256x32x128_2_1_1_2_0_0.rhsIdx (ix3 b h d) ((contrEquiv1 dot_S256x32x32_S256x32x128_S256x32x128_2_1_1_2_0_0 32 rfl rfl).symm g) = ix3 b g d := funext fun c => Fin.ext (by
    match c with
    | ⟨0, _⟩ => exact pv_rhs_0 _ _
    | ⟨1, _⟩ => exact (pv_rhs_1 _ _).trans hg
    | ⟨2, _⟩ => exact pv_rhs_2 _ _)
  rw [el, er]

/-! ### The layout operations -/

/-- Part `p` of the loaded block as a 256 × 32 × 128 table: the slice at offset `p` on axis 1 with that unit axis dropped. -/

theorem part0_apply (v : FVec Ideal S256x3x32x128 .bf16) (hs : S256x3x32x128.Slices ![0, 0, 0, 0] S256x1x32x128)
    (hc : S256x1x32x128.ShapeCasts S256x32x128) (b : Fin 256) (h : Fin 32) (d : Fin 128) :
    shapeCast S256x32x128 (extractStridedSlice S256x1x32x128 ![0, 0, 0, 0] v hs) hc (ix3 b h d) = v (ix4 b (0 : Fin 3) h d) := by
  refine (shapeCast_apply _ hc (ix3 b h d) (ix4 b (0 : Fin 1) h d) ?_).trans ?_
  · rw [Shape.rowMajor_val_four, Shape.rowMajor_val_three]
    show ((b.val * 1 + 0) * 32 + h.val) * 128 + d.val = (b.val * 32 + h.val) * 128 + d.val
    omega
  · exact extractStridedSlice_apply ![0, 0, 0, 0] v hs (ix4 b (0 : Fin 1) h d) (ix4 b (0 : Fin 3) h d) (fun a => match a with
      | ⟨0, _⟩ => by show b.val = 0 + b.val; omega
      | ⟨1, _⟩ => by show 0 = 0 + 0; rfl
      | ⟨2, _⟩ => by show h.val = 0 + h.val; omega
      | ⟨3, _⟩ => by show d.val = 0 + d.val; omega)

theorem part1_apply (v : FVec Ideal S256x3x32x128 .bf16) (hs : S256x3x32x128.Slices ![0, 1, 0, 0] S256x1x32x128)
    (hc : S256x1x32x128.ShapeCasts S256x32x128) (b : Fin 256) (h : Fin 32) (d : Fin 128) :
    shapeCast S256x32x128 (extractStridedSlice S256x1x32x128 ![0, 1, 0, 0] v hs) hc (ix3 b h d) = v (ix4 b (1 : Fin 3) h d) := by
  refine (shapeCast_apply _ hc (ix3 b h d) (ix4 b (0 : Fin 1) h d) ?_).trans ?_
  · rw [Shape.rowMajor_val_four, Shape.rowMajor_val_three]
    show ((b.val * 1 + 0) * 32 + h.val) * 128 + d.val = (b.val * 32 + h.val) * 128 + d.val
    omega
  · exact extractStridedSlice_apply ![0, 1, 0, 0] v hs (ix4 b (0 : Fin 1) h d) (ix4 b (1 : Fin 3) h d) (fun a => match a with
      | ⟨0, _⟩ => by show b.val = 0 + b.val; omega
      | ⟨1, _⟩ => by show 1 = 1 + 0; rfl
      | ⟨2, _⟩ => by show h.val = 0 + h.val; omega
      | ⟨3, _⟩ => by show d.val = 0 + d.val; omega)

theorem part2_apply (v : FVec Ideal S256x3x32x128 .bf16) (hs : S256x3x32x128.Slices ![0, 2, 0, 0] S256x1x32x128)
    (hc : S256x1x32x128.ShapeCasts S256x32x128) (b : Fin 256) (h : Fin 32) (d : Fin 128) :
    shapeCast S256x32x128 (extractStridedSlice S256x1x32x128 ![0, 2, 0, 0] v hs) hc (ix3 b h d) = v (ix4 b (2 : Fin 3) h d) := by
  refine (shapeCast_apply _ hc (ix3 b h d) (ix4 b (0 : Fin 1) h d) ?_).trans ?_
  · rw [Shape.rowMajor_val_four, Shape.rowMajor_val_three]
    show ((b.val * 1 + 0) * 32 + h.val) * 128 + d.val = (b.val * 32 + h.val) * 128 + d.val
    omega
  · exact extractStridedSlice_apply ![0, 2, 0, 0] v hs (ix4 b (0 : Fin 1) h d) (ix4 b (2 : Fin 3) h d) (fun a => match a with
      | ⟨0, _⟩ => by show b.val = 0 + b.val; omega
      | ⟨1, _⟩ => by show 2 = 2 + 0; rfl
      | ⟨2, _⟩ => by show h.val = 0 + h.val; omega
      | ⟨3, _⟩ => by show d.val = 0 + d.val; omega)

/-- A per-(row, head) value with a unit axis appended and spread over the 32 heads reads the value back. -/
theorem keep_apply (r : FVec Ideal S256x32 .f32) (hc : S256x32.ShapeCasts S256x32x1) (hb : S256x32x1.Broadcasts S256x32x32)
    (b : Fin 256) (h g : Fin 32) :
    broadcastTo S256x32x32 (shapeCast S256x32x1 r hc) hb (ix3 b h g) = r (ix2 b h) := by
  refine (broadcastTo_apply _ hb (ix3 b h g) (ix3 b h (0 : Fin 1)) (fun a => match a with
    | ⟨0, _⟩ => rfl
    | ⟨1, _⟩ => rfl
    | ⟨2, _⟩ => rfl)).trans ?_
  exact shapeCast_apply r hc _ _ (by
    rw [Shape.rowMajor_val_two, Shape.rowMajor_val_three]
    show b.val * 32 + h.val = (b.val * 32 + h.val) * 1 + 0
    omega)

/-- The 256 × 32 × 128 result flattened head-major: flat position `h·128 + d` holds head `h`, lane `d`. -/
theorem flat_apply (o : FVec Ideal S256x32x128 .f32) (hc : S256x32x128.ShapeCasts S256x4096) (b : Fin 256) (h : Fin 32) (d : Fin 128) :
    shapeCast S256x4096 o hc (ix2 b (⟨h.val * 128 + d.val, by omega⟩ : Fin 4096)) = o (ix3 b h d) :=
  shapeCast_apply o hc _ _ (by
    rw [Shape.rowMajor_val_three, Shape.rowMajor_val_two]
    show (b.val * 32 + h.val) * 128 + d.val = b.val * 4096 + (h.val * 128 + d.val)
    omega)

/-! ### The two reductions over the last axis -/

/-- The source index over `(b, h)` with `g` inserted on the reduced axis is `(b, h, g)`. -/
theorem lift_eq (hr : S256x32x32.Reduces [2] S256x32) (b : Fin 256) (h g : Fin 32) :
    hr.lift (ix2 b h) g = ix3 b h g := funext fun c => Fin.ext (by
  match c with
  | ⟨0, _⟩ => rfl
  | ⟨1, _⟩ => rfl
  | ⟨2, _⟩ => rfl)

/-- The maximum over the last axis, folded from the seed word. -/
theorem rowmax_apply (s : FVec Ideal S256x32x32 .f32) (hr : S256x32x32.Reduces [2] S256x32) (hφ : FKind.Formats .f32)
    (hacc : (0xFF800000#32 : BitVec 32) = 0xFF800000#32) (b : Fin 256) (h : Fin 32) :
    multiReduction .maximumf [2] S256x32 s 0xFF800000#32 hr hφ hacc (ix2 b h)
      = (Finset.univ : Finset (Fin 32)).fold max Cert.SelfAttn.seed (fun g => s (ix3 b h g)) := by
  refine (Ideal.multiReduction_maximumf_single s _ hr hφ hacc (ix2 b h)).trans ?_
  show (Finset.univ : Finset (Fin 32)).fold max Cert.SelfAttn.seed (s ∘ hr.lift (ix2 b h)) = _
  congr 1
  funext g
  exact congrArg s (lift_eq hr b h g)

/-- The sum over the last axis. -/
theorem rowsum_apply (s : FVec Ideal S256x32x32 .f32) (hr : S256x32x32.Reduces [2] S256x32) (hφ : FKind.Formats .f32)
    (hacc : (0x00000000#32 : BitVec 32) = 0x00000000#32) (b : Fin 256) (h : Fin 32) :
    multiReduction .add [2] S256x32 s 0x00000000#32 hr hφ hacc (ix2 b h) = ∑ g : Fin 32, s (ix3 b h g) := by
  refine (Ideal.multiReduction_add_single s _ hr hφ hacc (ix2 b h)).trans ?_
  show ∑ g : Fin 32, s (hr.lift (ix2 b h) g) = _
  exact Finset.sum_congr rfl fun g _ => congrArg s (lift_eq hr b h g)

/-! ### The chain -/

/-- The row-wise softmax as the kernel computes it on a table of scores, at (b, h, g): the weight of entry `g` in row
    (b, h). -/
theorem softmax_apply (s : FVec Ideal S256x32x32 .f32) (hr : S256x32x32.Reduces [2] S256x32) (hc : S256x32.ShapeCasts S256x32x1)
    (hb : S256x32x1.Broadcasts S256x32x32) (hφ hφ' : FKind.Formats .f32)
    (hm : (0xFF800000#32 : BitVec 32) = 0xFF800000#32) (hz : (0x00000000#32 : BitVec 32) = 0x00000000#32)
    (b : Fin 256) (h g : Fin 32) :
    divf (exp (subf s (broadcastTo S256x32x32 (shapeCast S256x32x1 (multiReduction .maximumf [2] S256x32 s 0xFF800000#32 hr hφ hm) hc) hb)))
        (broadcastTo S256x32x32 (shapeCast S256x32x1 (multiReduction .add [2] S256x32
          (exp (subf s (broadcastTo S256x32x32 (shapeCast S256x32x1 (multiReduction .maximumf [2] S256x32 s 0xFF800000#32 hr hφ hm) hc) hb)))
          0x00000000#32 hr hφ' hz) hc) hb) (ix3 b h g)
      = Cert.SelfAttn.weight (fun g => s (ix3 b h g)) g := by
  have hsh : ∀ g' : Fin 32,
      exp (subf s (broadcastTo S256x32x32 (shapeCast S256x32x1 (multiReduction .maximumf [2] S256x32 s 0xFF800000#32 hr hφ hm) hc) hb)) (ix3 b h g')
        = Cert.SelfAttn.shifted (fun g => s (ix3 b h g)) g' := fun g' => by
    show Ideal.exp (s (ix3 b h g') - broadcastTo S256x32x32 (shapeCast S256x32x1 (multiReduction .maximumf [2] S256x32 s 0xFF800000#32 hr hφ hm) hc) hb (ix3 b h g')) = _
    rw [keep_apply, rowmax_apply]
    rfl
  rw [divf_apply, keep_apply, rowsum_apply, hsh g]
  unfold Cert.SelfAttn.weight
  exact congrArg _ (Finset.sum_congr rfl fun g' _ => hsh g')

/-- THE ATTENTION KERNEL'S BODY at row `b` of the block, head `h`, lane `d`: one row of attention over the heads, from the
    three parts of the loaded block's row `b`. -/
theorem attn_block (v0 : FVec Ideal S256x3x32x128 .bf16) (b : Fin 256) (h : Fin 32) (d : Fin 128) :
    k1_pay1 (F := Ideal) v0 (ix2 b (⟨h.val * 128 + d.val, by omega⟩ : Fin 4096))
      = Cert.SelfAttn.attend (fun h d => v0 (ix4 b (0 : Fin 3) h d)) (fun h d => v0 (ix4 b (1 : Fin 3) h d))
          (fun h d => v0 (ix4 b (2 : Fin 3) h d)) h d := by
  unfold k1_pay1
  simp only [shapeCast_self]
  rw [truncf_apply, flat_apply, pv_apply]
  unfold Cert.SelfAttn.attend
  refine Finset.sum_congr rfl fun g _ => ?_
  rw [part2_apply, truncf_apply, softmax_apply]
  congr 2
  funext g'
  rw [mulf_apply, qk_apply, broadcast_apply]
  unfold Cert.SelfAttn.score
  congr 1
  exact Finset.sum_congr rfl fun d' _ => by rw [part0_apply, part1_apply]

/-- The same at a flat position `n` of the stored row: head `n / 128`, lane `n % 128`. -/
theorem attn_block_flat (v0 : FVec Ideal S256x3x32x128 .bf16) (b : Fin 256) (n : Fin 4096) :
    k1_pay1 (F := Ideal) v0 (ix2 b n)
      = Cert.SelfAttn.attend (fun h d => v0 (ix4 b (0 : Fin 3) h d)) (fun h d => v0 (ix4 b (1 : Fin 3) h d))
          (fun h d => v0 (ix4 b (2 : Fin 3) h d))
          (⟨n.val / 128, by have := n.isLt; omega⟩ : Fin 32) (⟨n.val % 128, Nat.mod_lt _ (by norm_num)⟩ : Fin 128) := by
  have e : n = (⟨n.val / 128 * 128 + n.val % 128, by have := n.isLt; omega⟩ : Fin 4096) :=
    Fin.ext (by show n.val = n.val / 128 * 128 + n.val % 128; omega)
  exact (congrArg (fun m => k1_pay1 (F := Ideal) v0 (ix2 b m)) e).trans
    (attn_block v0 b ⟨n.val / 128, by have := n.isLt; omega⟩ ⟨n.val % 128, Nat.mod_lt _ (by norm_num)⟩)

end Cert.SelfAttn.Block

end
-- ==== Proof.ValueKI.Region0Value.lean ====
/-
  What the first matrix product's region leaves in its output array, over the extended reals.

  The grid's points come in pairs (2u, 2u + 1) over one output block (i, j). Point 2u resets the accumulator
  to zero and adds the product of the first halves of the block's row strip and column strip; point 2u + 1
  adds the product of the second halves and stores the accumulator, and only then is the block written back.
  So the block written back at point 2u + 1 holds, at (p, q), the whole contraction over the 4096 positions of
  row i·1024 + p of the left array and column j·1024 + q of the right array; the blocks written back tile the
  output array.
-/
import proofs.«100182_j74002286510407_2_alg».proof.Proof.FrameKI.Region0
import proofs.«100182_j74002286510407_2_alg».proof.Proof.BlockMath
import proofs.«100182_j74002286510407_2_alg».proof.Proof.AttnSpec
import Idealize.ShloMosaic.Lib.Pipeline.Value
import Idealize.ShloMosaic.Lib.ValueIdx
import Idealize.ShloMosaic.Lib.Tactic

noncomputable section

namespace Cert.KernelIdeal.HandValue

open Idealize.ShloMosaic Idealize.ShloMosaic.ValueIdx Idealize.ShloMosaic.TcCoe Idealize.ShloMosaic.Tactic Idealize.SL.Sem
open Cert.KernelIdeal Cert.KernelIdeal.Gen Cert.KernelIdeal.Hand
open Idealize.ShloMosaic.Pipeline (Dat)

/-! ## What each case of the body leaves, as the payloads of the blocks it loads (at any float instance) -/

section Cases

variable {F : FTy → Type} [FloatOps F]

theorem hz : (![0, 0] : Fin 2 → Nat) = fun _ => 0 := funext fun a => by fin_cases a <;> rfl

/-- At the first point of a pair the accumulator ends at the reset value with the first product added. -/
theorem sout0_A_eq (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (x0 : Vec F S1024x2048 .bf16) (x1 : Vec F S2048x1024 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz, View.ld_unit_zero (S := S2048x1024) hz]

/-- At the second point the accumulator ends at what it held with the second product added, … -/
theorem sout0_B_eq (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 : Vec F S1024x2048 .bf16) (x1 : Vec F S2048x1024 .bf16) (xs0 : Vec F S1024x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x2048) hz, View.ld_unit_zero (S := S2048x1024) hz, View.ld_unit_zero (S := S1024x1024) hz]

/-- … and the output block at that accumulator, narrowed. -/
theorem out0_B_eq (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (x0 : Vec F S1024x2048 .bf16) (x1 : Vec F S2048x1024 .bf16) (xs0 : Vec F S1024x1024 .f32) :
    out0_B_2 c i a3 h3 a4 h4 a5 h5 a6 h6 hc0 hc1 x0 x1 xs0 = k0_pay3 (k0_pay2 x0 x1 xs0) := by
  unfold out0_B_2
  rw [View.read_writes_eq_canon _ _ _ (cover0_B_2 c i a3 h3 a4 h4 a5 h5 a6 h6 hc0 hc1 x0 x1 xs0)]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S1024x2048) hz, View.ld_unit_zero (S := S2048x1024) hz, View.ld_unit_zero (S := S1024x1024) hz]

end Cases

/-! ## The region at the ideal instance -/

variable (V : (c : Dev nD) → (b : Ref sig .tc) → Buf (Elt Ideal) ((c : Thread nD τ).loc b))

/-- The block indices of the three windows at every point: point t is (i, j, k) = (t / 24, t / 2 % 12, t % 2); the left
    operand's block is (i, k), the right one's (k, j), the output's (i, j). -/
theorem idx0 : ∀ t : Fin cfg0.N,
    win0_0.index t (0 : Fin 2) = t.val / 24 ∧ win0_0.index t (1 : Fin 2) = t.val % 2
    ∧ win0_1.index t (0 : Fin 2) = t.val % 2 ∧ win0_1.index t (1 : Fin 2) = t.val / 2 % 12
    ∧ win0_2.index t (0 : Fin 2) = t.val / 24 ∧ win0_2.index t (1 : Fin 2) = t.val / 2 % 12 :=
  (by decide +kernel : ∀ t : Fin grid0.N, _)

/-- The two operand arrays as the region finds them, as plain tables of extended reals. -/
abbrev lhs0 (c : Dev nD) : S8192x4096.Idx → EReal := V c main_v0
abbrev rhs0 (c : Dev nD) : S4096x12288.Idx → EReal := V c main_v2

/-- The left operand's block at point `t`, entry (p, k): the array at row (t / 24)·1024 + p, column (t % 2)·2048 + k. -/
theorem blk0_0_apply (c : Dev nD) (t : Fin cfg0.N) (p : Fin 1024) (k : Fin 2048) (R : Fin 8192) (K : Fin 4096)
    (hR : R.val = t.val / 24 * 1024 + p.val) (hK : K.val = t.val % 2 * 2048 + k.val) :
    (iblk0 V c 0 t : Vec Ideal S1024x2048 .bf16) (ix2 p k) = lhs0 V c (ix2 R K) := by
  obtain ⟨e0, e1, -⟩ := idx0 t
  unfold iblk0
  rw [View.read_apply]
  show lhs0 V c _ = _
  congr 1
  funext a
  apply Fin.ext
  match a with
  | ⟨0, _⟩ => show win0_0.index t (0 : Fin 2) * 1024 + 1 * p.val = R.val; omega
  | ⟨1, _⟩ => show win0_0.index t (1 : Fin 2) * 2048 + 1 * k.val = K.val; omega

/-- The right operand's block at point `t`, entry (k, q): the array at row (t % 2)·2048 + k, column (t / 2 % 12)·1024 + q. -/
theorem blk0_1_apply (c : Dev nD) (t : Fin cfg0.N) (k : Fin 2048) (q : Fin 1024) (K : Fin 4096) (C : Fin 12288)
    (hK : K.val = t.val % 2 * 2048 + k.val) (hC : C.val = t.val / 2 % 12 * 1024 + q.val) :
    (iblk0 V c 1 t : Vec Ideal S2048x1024 .bf16) (ix2 k q) = rhs0 V c (ix2 K C) := by
  obtain ⟨-, -, e2, e3, -⟩ := idx0 t
  unfold iblk0
  rw [View.read_apply]
  show rhs0 V c _ = _
  congr 1
  funext a
  apply Fin.ext
  match a with
  | ⟨0, _⟩ => show win0_1.index t (0 : Fin 2) * 2048 + 1 * k.val = K.val; omega
  | ⟨1, _⟩ => show win0_1.index t (1 : Fin 2) * 1024 + 1 * q.val = C.val; omega

/-- An accumulator reset to zero, then two halves of a contraction added one after the other, is the whole contraction. -/
theorem two_halves (f : Fin 4096 → EReal) :
    (0 + ∑ k : Fin 2048, f ⟨k.val, by omega⟩) + ∑ k : Fin 2048, f ⟨2048 + k.val, by omega⟩ = ∑ k : Fin 4096, f k := by
  rw [zero_add]
  exact (Fin.sum_univ_add (a := 2048) (b := 2048) f).symm

/-- THE SPECIFIED PRODUCT: entry (r, n) is the contraction of row r of the left array with column n of the right one. -/
def prod0 (A : S8192x4096.Idx → EReal) (B : S4096x12288.Idx → EReal) : S8192x12288.Idx → EReal :=
  fun i => ∑ k : Fin 4096, A (ix2 (i 0) k) * B (ix2 k (i 1))

/-- What the output block holds after the second point of a pair, entry (p, q): the whole contraction at the entry's
    place in the array. -/
theorem out0_at (c : Dev nD) (t : Fin cfg0.N) (h1 : t.val % 2 = 1) (p q : Fin 1024) (R : Fin 8192) (C : Fin 12288)
    (hR : R.val = t.val / 24 * 1024 + p.val) (hC : C.val = t.val / 2 % 12 * 1024 + q.val) :
    ((outsAt0 V c t.val t.isLt).1 : Vec Ideal S1024x1024 .bf16) (ix2 p q)
      = ∑ k : Fin 4096, lhs0 V c (ix2 R k) * rhs0 V c (ix2 k C) := by
  have hN : cfg0.N = 192 := N_0
  have h0 : ¬t.val % 2 = 0 := by omega
  have hlt : t.val - 1 < cfg0.N := Nat.lt_of_le_of_lt (Nat.sub_le _ _) t.isLt
  have h0' : (⟨t.val - 1, hlt⟩ : Fin cfg0.N).val % 2 = 0 := by show (t.val - 1) % 2 = 0; omega
  have h1' : ¬(⟨t.val - 1, hlt⟩ : Fin cfg0.N).val % 2 = 1 := by show ¬(t.val - 1) % 2 = 1; omega
  have eA := outsAt0_A V c ⟨t.val - 1, hlt⟩ h0' h1'
  rw [outsAt0_B V c t h0 h1]
  dsimp only
  rw [out0_B_eq, show (outsAt0 V c (t.val - 1) hlt).2 = _ from congrArg Prod.snd eA]
  dsimp only
  rw [sout0_A_eq, Cert.SelfAttn.Block.out_cast, Cert.SelfAttn.Block.acc_step, Cert.SelfAttn.Block.acc_step, Cert.SelfAttn.Block.acc_reset]
  refine Eq.trans ?_ (two_halves fun k => lhs0 V c (ix2 R k) * rhs0 V c (ix2 k C))
  congr 1
  · congr 1
    refine Finset.sum_congr rfl fun k _ => ?_
    rw [blk0_0_apply V c ⟨t.val - 1, hlt⟩ p k R ⟨k.val, by omega⟩ (by show R.val = (t.val - 1) / 24 * 1024 + p.val; omega) (by show k.val = (t.val - 1) % 2 * 2048 + k.val; omega),
      blk0_1_apply V c ⟨t.val - 1, hlt⟩ k q ⟨k.val, by omega⟩ C (by show k.val = (t.val - 1) % 2 * 2048 + k.val; omega) (by show C.val = (t.val - 1) / 2 % 12 * 1024 + q.val; omega)]
  · refine Finset.sum_congr rfl fun k _ => ?_
    rw [blk0_0_apply V c t p k R ⟨2048 + k.val, by omega⟩ hR (by show 2048 + k.val = t.val % 2 * 2048 + k.val; omega),
      blk0_1_apply V c t k q ⟨2048 + k.val, by omega⟩ C (by show 2048 + k.val = t.val % 2 * 2048 + k.val; omega) hC]

/-! ## From the blocks to the array -/

/-- An index of the output array is in point `t`'s block iff each coordinate is in the block's range on its axis. -/
theorem mem_blk0 (t : Fin cfg0.N) (i : S8192x12288.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v9).slice (win0_2.rect t)).set ↔ _
  rw [View.set_slice_whole, Rect.mem_set_unit]
  exact Iff.rfl

/-- WHAT A POINT WRITES BACK (only the second point of a pair does) is its block of the specified product. -/
theorem flushed0_eq (c : Dev nD) (t : Fin cfg0.N) (hf : (cfg0.win 2).flush t = true) :
    (dat0 V c).flushed 2 t = ((cfg0.win 2).blk t).view.read (Elt Ideal) (prod0 (lhs0 V c) (rhs0 V c)) := by
  have h1 : t.val % 2 = 1 := (flush0_2 t).mp hf
  obtain ⟨-, -, -, -, e4, e5⟩ := idx0 t
  show (cfg0.win 2).cut (grid0.coords t) ((dat0 V c).after 2 t) = _
  rw [after0_2]
  funext y
  have hy0 : (y 0).val < 1024 := (y 0).isLt
  have hy1 : (y 1).val < 1024 := (y 1).isLt
  have ey : (cfg0.win 2).xinj (grid0.coords t) y = ix2 (⟨(y 0).val, hy0⟩ : Fin 1024) (⟨(y 1).val, hy1⟩ : Fin 1024) :=
    funext fun a => Fin.ext (by match a with | ⟨0, _⟩ => rfl | ⟨1, _⟩ => rfl)
  refine ((congrArg ((outsAt0 V c t.val t.isLt).1 : S1024x1024.Idx → EReal) ey).trans
    (out0_at V c t h1 _ _ ((((cfg0.win 2).blk t).view.emb y) 0) ((((cfg0.win 2).blk t).view.emb y) 1) ?_ ?_)).trans ?_
  · show win0_2.index t (0 : Fin 2) * 1024 + 1 * (y 0).val = t.val / 24 * 1024 + (y 0).val; omega
  · show win0_2.index t (1 : Fin 2) * 1024 + 1 * (y 1).val = t.val / 2 % 12 * 1024 + (y 1).val; omega
  · rfl

/-- Every index of the output array is in the block some second point of a pair writes back. -/
theorem cover0 (i : S8192x12288.Idx) : ∃ t : Fin cfg0.N, (cfg0.win 2).flush t = true ∧ i ∈ ((cfg0.win 2).blk t).view.set := by
  have hi0 : (i 0).val < 8192 := (i 0).isLt
  have hi1 : (i 1).val < 12288 := (i 1).isLt
  have hN : cfg0.N = 192 := N_0
  have hlt : ((i 0).val / 1024 * 12 + (i 1).val / 1024) * 2 + 1 < cfg0.N := by omega
  obtain ⟨-, -, -, -, e4, e5⟩ := idx0 ⟨((i 0).val / 1024 * 12 + (i 1).val / 1024) * 2 + 1, hlt⟩
  have ht : (⟨((i 0).val / 1024 * 12 + (i 1).val / 1024) * 2 + 1, hlt⟩ : Fin cfg0.N).val = ((i 0).val / 1024 * 12 + (i 1).val / 1024) * 2 + 1 := rfl
  refine ⟨⟨((i 0).val / 1024 * 12 + (i 1).val / 1024) * 2 + 1, hlt⟩, (flush0_2 _).mpr (by rw [ht]; omega), ?_⟩
  rw [mem_blk0]
  intro a
  match a with
  | ⟨0, _⟩ =>
    show win0_2.index _ (0 : Fin 2) * 1024 ≤ (i 0).val ∧ (i 0).val < win0_2.index _ (0 : Fin 2) * 1024 + 1024
    omega
  | ⟨1, _⟩ =>
    show win0_2.index _ (1 : Fin 2) * 1024 ≤ (i 1).val ∧ (i 1).val < win0_2.index _ (1 : Fin 2) * 1024 + 1024
    omega

/-- THE OUTPUT ARRAY AFTER THE REGION is the specified product of the two operand arrays as the region found them. -/
theorem region0_array (c : Dev nD) : (dat0 V c).arrAt 2 cfg0.N = prod0 (lhs0 V c) (rhs0 V c) :=
  (dat0 V c).arrAt_eq_of_cover 2 (prod0 (lhs0 V c) (rhs0 V c)) (flushed0_eq V c) cover0

/-- Entry by entry: row r, column n of the output is the contraction of row r of the left array with column n of the right. -/
theorem region0_value (c : Dev nD) (r : Fin 8192) (n : Fin 12288) :
    ((dat0 V c).arrAt 2 cfg0.N : S8192x12288.Idx → EReal) (ix2 r n) = ∑ k : Fin 4096, lhs0 V c (ix2 r k) * rhs0 V c (ix2 k n) :=
  congrFun (region0_array V c) (ix2 r n)

end Cert.KernelIdeal.HandValue

end
-- ==== Proof.ValueKI.Region1Value.lean ====
/-
  What the attention region leaves in its output array.

  The region's 32 points each take 256 rows of the qkv array, viewed [8192, 3, 32, 128], and write back the 256 × 4096
  block of their attention outputs. Point t's block of the output is rows 256·t … 256·t + 255, and its input block is the
  same rows of the qkv array, so what point t writes back is block t of ONE function of the qkv array: at (r, n), the
  attention of row r's three tables at head n div 128, lane n mod 128. The 32 blocks tile the array, so the array ends
  holding that function.
-/
import proofs.«100182_j74002286510407_2_alg».proof.Proof.FrameKI.Region1
import proofs.«100182_j74002286510407_2_alg».proof.Proof.BlockMath
import proofs.«100182_j74002286510407_2_alg».proof.Proof.AttnSpec
import Idealize.ShloMosaic.Lib.Pipeline.Value
import Idealize.ShloMosaic.Lib.ValueIdx

noncomputable section

namespace Cert.KernelIdeal.HandValue

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Hand

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz4 : (![0, 0, 0, 0] : Fin 4 → Nat) = fun _ => 0 := funext fun a => by fin_cases a <;> rfl

/-- Row r's attention output at flat position n (head n div 128, lane n mod 128), from the qkv array viewed
    [8192, 3, 32, 128]. -/
def attnAt (A : S8192x3x32x128.Idx → EReal) (r : Fin 8192) (n : Fin 4096) : EReal :=
  Cert.SelfAttn.attend (fun h d => A (ix4 r (0 : Fin 3) h d)) (fun h d => A (ix4 r (1 : Fin 3) h d))
    (fun h d => A (ix4 r (2 : Fin 3) h d))
    (⟨n.val / 128, by have := n.isLt; omega⟩ : Fin 32) (⟨n.val % 128, Nat.mod_lt _ (by norm_num)⟩ : Fin 128)

/-- The printed index maps, decided over the grid: both windows' block index at point t is (t, 0, …). -/
theorem idx_facts1 : ∀ t : Fin cfg1.N, win1_0.index t (0 : Fin 4) = t.val ∧ win1_0.index t (1 : Fin 4) = 0
    ∧ win1_0.index t (2 : Fin 4) = 0 ∧ win1_0.index t (3 : Fin 4) = 0
    ∧ win1_1.index t (0 : Fin 2) = t.val ∧ win1_1.index t (1 : Fin 2) = 0 :=
  (by decide +kernel : ∀ t : Fin grid1.N, _)

theorem t_lt (t : Fin cfg1.N) : t.val < 32 := lt_of_lt_of_eq t.isLt N_1

/-- The array row of row b of point t's blocks. -/
def rowAt (t : Fin cfg1.N) (b : Fin 256) : Fin 8192 := ⟨t.val * 256 + b.val, by have := t_lt t; omega⟩

/-- The input block at point t is rows 256·t … of the qkv array. -/
theorem iblk1_apply (c : Dev nD) (t : Fin cfg1.N) (b : Fin 256) (p : Fin 3) (h : Fin 32) (d : Fin 128) :
    (iblk1 V c 0 t : Vec Ideal S256x3x32x128 .bf16) (ix4 b p h d)
      = (V c main_v10 : S8192x3x32x128.Idx → EReal) (ix4 (rowAt t b) p h d) := by
  obtain ⟨e0, e1, e2, e3, -, -⟩ := idx_facts1 t
  unfold iblk1
  rw [View.read_apply]
  show (V c main_v10 : S8192x3x32x128.Idx → EReal) _ = _
  congr 1
  funext a
  apply Fin.ext
  match a with
  | ⟨0, _⟩ => show win1_0.index t (0 : Fin 4) * 256 + 1 * b.val = t.val * 256 + b.val; rw [e0]; omega
  | ⟨1, _⟩ => show win1_0.index t (1 : Fin 4) * 3 + 1 * p.val = p.val; rw [e1]; omega
  | ⟨2, _⟩ => show win1_0.index t (2 : Fin 4) * 32 + 1 * h.val = h.val; rw [e2]; omega
  | ⟨3, _⟩ => show win1_0.index t (3 : Fin 4) * 128 + 1 * d.val = d.val; rw [e3]; omega

/-- The body's payload on point t's input block, at row b and flat position n: the attention of the array's row. -/
theorem pay1_apply (c : Dev nD) (t : Fin cfg1.N) (b : Fin 256) (n : Fin 4096) :
    k1_pay1 (F := Ideal) (iblk1 V c 0 t) (ix2 b n) = attnAt (V c main_v10) (rowAt t b) n := by
  refine (Cert.SelfAttn.Block.attn_block_flat (iblk1 V c 0 t) b n).trans ?_
  have e0 : (fun (h : Fin 32) (d : Fin 128) => (iblk1 V c 0 t : Vec Ideal S256x3x32x128 .bf16) (ix4 b (0 : Fin 3) h d))
      = fun h d => (V c main_v10 : S8192x3x32x128.Idx → EReal) (ix4 (rowAt t b) (0 : Fin 3) h d) :=
    funext fun h => funext fun d => iblk1_apply V c t b 0 h d
  have e1 : (fun (h : Fin 32) (d : Fin 128) => (iblk1 V c 0 t : Vec Ideal S256x3x32x128 .bf16) (ix4 b (1 : Fin 3) h d))
      = fun h d => (V c main_v10 : S8192x3x32x128.Idx → EReal) (ix4 (rowAt t b) (1 : Fin 3) h d) :=
    funext fun h => funext fun d => iblk1_apply V c t b 1 h d
  have e2 : (fun (h : Fin 32) (d : Fin 128) => (iblk1 V c 0 t : Vec Ideal S256x3x32x128 .bf16) (ix4 b (2 : Fin 3) h d))
      = fun h d => (V c main_v10 : S8192x3x32x128.Idx → EReal) (ix4 (rowAt t b) (2 : Fin 3) h d) :=
    funext fun h => funext fun d => iblk1_apply V c t b 2 h d
  rw [e0, e1, e2]
  rfl

/-- What the array ends holding: at (r, n), row r's attention at flat position n. -/
def G1 (c : Dev nD) : Buf (Elt Ideal) ((cfg1.win 1).arr.view.loc (c.tc : Thread nD τ)) :=
  fun i => attnAt (V c main_v10) (i 0) (i 1)

/-- WHAT POINT t WRITES BACK is block t of G1. -/
theorem flushed1_eq (c : Dev nD) (t : Fin cfg1.N) :
    (dat1 V c).flushed 1 t = ((cfg1.win 1).blk t).view.read (Elt Ideal) (G1 V c) := by
  show (cfg1.win 1).cut (grid1.coords t) ((dat1 V c).after 1 t) = _
  rw [after1_1]
  unfold out1_1
  rw [View.canon_unit_zero hz2]
  rw [View.ld_unit_zero (S := S256x3x32x128) hz4]
  obtain ⟨-, -, -, -, e4, e5⟩ := idx_facts1 t
  funext j
  show k1_pay1 (F := Ideal) (iblk1 V c 0 t) j = G1 V c (((cfg1.win 1).blk t).view.emb j)
  refine (congrArg (k1_pay1 (F := Ideal) (iblk1 V c 0 t)) (eq_ix2 j)).trans ?_
  refine (pay1_apply V c t (j 0) (j 1)).trans ?_
  unfold G1
  have h0 : rowAt t (j 0) = (((cfg1.win 1).blk t).view.emb j 0) :=
    Fin.ext (by show t.val * 256 + (j 0).val = win1_1.index t (0 : Fin 2) * 256 + 1 * (j 0).val; rw [e4]; omega)
  have h1 : (j 1 : Fin 4096) = (((cfg1.win 1).blk t).view.emb j 1) :=
    Fin.ext (by show (j 1).val = win1_1.index t (1 : Fin 2) * 4096 + 1 * (j 1).val; rw [e5]; omega)
  exact congrArg₂ (attnAt (V c main_v10)) h0 h1

/-- An index of the array is in point t's block iff each coordinate is in the block's range on its axis. -/
theorem mem_blk1 (t : Fin cfg1.N) (i : S8192x4096.Idx) :
    i ∈ ((cfg1.win 1).blk t).view.set ↔ ∀ a : Fin 2, win1_1.index t a * S256x4096.size a ≤ (i a).val ∧ (i a).val < win1_1.index t a * S256x4096.size a + S256x4096.size a := by
  show i ∈ ((View.whole main_v11).slice (win1_1.rect t)).set ↔ _
  rw [View.set_slice_whole, Rect.mem_set_unit]
  exact Iff.rfl

/-- THE ARRAY after the region: G1, since the 32 row blocks tile it. -/
theorem final1 (c : Dev nD) : (dat1 V c).arrAt 1 cfg1.N = G1 V c :=
  (dat1 V c).arrAt_eq_of_cover 1 (G1 V c) (fun t _ => flushed1_eq V c t) fun i => by
    have hi0 : (i 0).val < 8192 := (i 0).isLt
    have hi1 : (i 1).val < 4096 := (i 1).isLt
    let t : Fin cfg1.N := ⟨(i 0).val / 256, by rw [show cfg1.N = 32 from N_1]; omega⟩
    obtain ⟨-, -, -, -, e4, e5⟩ := idx_facts1 t
    refine ⟨t, flush1_1 t, ?_⟩
    rw [mem_blk1]
    intro a
    match a with
    | ⟨0, _⟩ => show win1_1.index t (0 : Fin 2) * 256 ≤ (i 0).val ∧ (i 0).val < win1_1.index t (0 : Fin 2) * 256 + 256
                rw [e4]; show (i 0).val / 256 * 256 ≤ (i 0).val ∧ (i 0).val < (i 0).val / 256 * 256 + 256; omega
    | ⟨1, _⟩ => show win1_1.index t (1 : Fin 2) * 4096 ≤ (i 1).val ∧ (i 1).val < win1_1.index t (1 : Fin 2) * 4096 + 4096
                rw [e5]; omega

/-- THE ATTENTION REGION'S OUTPUT at (r, n): the attention of row r of the qkv array, viewed [8192, 3, 32, 128], at head
    n div 128 and lane n mod 128. -/
theorem region1_value (c : Dev nD) (r : Fin 8192) (n : Fin 4096) :
    (dat1 V c).arrAt 1 cfg1.N (ix2 r n)
      = Cert.SelfAttn.attend (fun h d => (V c main_v10) (ix4 r (0 : Fin 3) h d)) (fun h d => (V c main_v10) (ix4 r (1 : Fin 3) h d))
          (fun h d => (V c main_v10) (ix4 r (2 : Fin 3) h d))
          (⟨n.val / 128, by have := n.isLt; omega⟩ : Fin 32) (⟨n.val % 128, Nat.mod_lt _ (by norm_num)⟩ : Fin 128) := by
  rw [final1]
  rfl

end Cert.KernelIdeal.HandValue

end
-- ==== Proof.ValueKI.Region2Value.lean ====
/-
  What the second matrix product's region (with the bias) leaves in its output array, over the extended reals.

  The grid's points come in pairs (2u, 2u + 1) over one output block (i, j). Point 2u resets the accumulator to zero
  and adds the product of the first halves of the block's row strip and column strip; point 2u + 1 adds the product
  of the second halves and stores the accumulator plus the bias row's block, and only then is the block written
  back. So the block written back at point 2u + 1 holds, at (p, q), the whole contraction over the 4096 positions of
  row i·1024 + p of the left array and column j·1024 + q of the right array, plus the bias at column j·1024 + q; the
  blocks written back tile the output array.
-/
import proofs.«100182_j74002286510407_2_alg».proof.Proof.FrameKI.Region2
import proofs.«100182_j74002286510407_2_alg».proof.Proof.BlockMath
import proofs.«100182_j74002286510407_2_alg».proof.Proof.AttnSpec
import Idealize.ShloMosaic.Lib.Pipeline.Value
import Idealize.ShloMosaic.Lib.ValueIdx
import Idealize.ShloMosaic.Lib.Tactic

noncomputable section

namespace Cert.KernelIdeal.HandValue

open Idealize.ShloMosaic Idealize.ShloMosaic.ValueIdx Idealize.ShloMosaic.TcCoe Idealize.ShloMosaic.Tactic Idealize.SL.Sem
open Cert.KernelIdeal Cert.KernelIdeal.Gen Cert.KernelIdeal.Hand
open Idealize.ShloMosaic.Pipeline (Dat)

/-! ## What each case of the body leaves, as the payloads of the blocks it loads (at any float instance) -/

section Cases

variable {F : FTy → Type} [FloatOps F]

theorem hz2 : (![0, 0] : Fin 2 → Nat) = fun _ => 0 := funext fun a => by fin_cases a <;> rfl

/-- At the first point of a pair the accumulator ends at the reset value with the first product added. -/
theorem sout2_A_eq (c : Dev nD) (i : grid2.Coords) (a3 : Memref sig .tc .vmem S1024x2048 .bf16) (h3 : a3.IsWhole) (a4 : Memref sig .tc .vmem S2048x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond2_0 i) (hc1 : ¬cond2_1 i) (x0 : Vec F S1024x2048 .bf16) (x1 : Vec F S2048x1024 .bf16) (x2 : Vec F S1x1024 .f32) :
    sout2_A_0 c i a3 h3 a4 h4 a5 h5 a6 h6 a7 h7 hc0 hc1 x0 x1 x2 = k2_pay2 x0 x1 (k2_pay1 (F := F)) := by
  unfold sout2_A_0
  rw [View.read_writes_eq_canon _ _ _ (scover2_A_0 c i a3 h3 a4 h4 a5 h5 a6 h6 a7 h7 hc0 hc1 x0 x1 x2)]
  unfold kernelRun2_A
  dsimp only
  sl_unfold_words
  rw [View.canon_cons_unit_zero (S := S1024x1024) hz2, View.readCov_unit_zero (S := S1024x1024) _ hz2]
  simp only [View.readAt_eq_ld, h3.read_unread, h4.read_unread, View.ld_unit_zero (S := S1024x2048) hz2, View.ld_unit_zero (S := S2048x1024) hz2]

/-- At the second point the accumulator ends at what it held with the second product added, … -/
theorem sout2_B_eq (c : Dev nD) (i : grid2.Coords) (a3 : Memref sig .tc .vmem S1024x2048 .bf16) (h3 : a3.IsWhole) (a4 : Memref sig .tc .vmem S2048x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i) (x0 : Vec F S1024x2048 .bf16) (x1 : Vec F S2048x1024 .bf16) (x2 : Vec F S1x1024 .f32) (xs0 : Vec F S1024x1024 .f32) :
    sout2_B_0 c i a3 h3 a4 h4 a5 h5 a6 h6 a7 h7 hc0 hc1 x0 x1 x2 xs0 = k2_pay2 x0 x1 xs0 := by
  unfold sout2_B_0
  rw [View.read_writes_eq_canon _ _ _ (scover2_B_0 c i a3 h3 a4 h4 a5 h5 a6 h6 a7 h7 hc0 hc1 x0 x1 x2 xs0)]
  unfold kernelRun2_B
  dsimp only
  sl_unfold_words
  rw [View.canon_unit_zero hz2]
  simp only [View.readAt_eq_ld, h3.read_unread, h4.read_unread, h7.read_unread, View.ld_unit_zero (S := S1024x2048) hz2, View.ld_unit_zero (S := S2048x1024) hz2, View.ld_unit_zero (S := S1024x1024) hz2]

/-- … and the output block at that accumulator plus the bias row's block. -/
theorem out2_B_eq (c : Dev nD) (i : grid2.Coords) (a3 : Memref sig .tc .vmem S1024x2048 .bf16) (h3 : a3.IsWhole) (a4 : Memref sig .tc .vmem S2048x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i) (x0 : Vec F S1024x2048 .bf16) (x1 : Vec F S2048x1024 .bf16) (x2 : Vec F S1x1024 .f32) (xs0 : Vec F S1024x1024 .f32) :
    out2_B_3 c i a3 h3 a4 h4 a5 h5 a6 h6 a7 h7 hc0 hc1 x0 x1 x2 xs0 = k2_pay3 (k2_pay2 x0 x1 xs0) x2 := by
  unfold out2_B_3
  rw [View.read_writes_eq_canon _ _ _ (cover2_B_3 c i a3 h3 a4 h4 a5 h5 a6 h6 a7 h7 hc0 hc1 x0 x1 x2 xs0)]
  unfold kernelRun2_B
  dsimp only
  sl_unfold_words
  rw [View.canon_unit_zero hz2, View.readCov_unit_zero (S := S1024x1024) _ hz2]
  simp only [View.readAt_eq_ld, h3.read_unread, h4.read_unread, h5.read_unread, h7.read_unread, View.ld_unit_zero (S := S1024x2048) hz2, View.ld_unit_zero (S := S2048x1024) hz2, View.ld_unit_zero (S := S1024x1024) hz2, View.ld_unit_zero (S := S1x1024) hz2]

end Cases

/-! ## The region at the ideal instance -/

variable (V : (c : Dev nD) → (b : Ref sig .tc) → Buf (Elt Ideal) ((c : Thread nD τ).loc b))

/-- The block indices of the four windows at every point: point t is (i, j, k) = (t / 8, t / 2 % 4, t % 2); the left operand's
    block is (i, k), the right one's (k, j), the bias row's (0, j), the output's (i, j). -/
theorem idx2 : ∀ t : Fin cfg2.N,
    win2_0.index t (0 : Fin 2) = t.val / 8 ∧ win2_0.index t (1 : Fin 2) = t.val % 2
    ∧ win2_1.index t (0 : Fin 2) = t.val % 2 ∧ win2_1.index t (1 : Fin 2) = t.val / 2 % 4
    ∧ win2_2.index t (0 : Fin 2) = 0 ∧ win2_2.index t (1 : Fin 2) = t.val / 2 % 4
    ∧ win2_3.index t (0 : Fin 2) = t.val / 8 ∧ win2_3.index t (1 : Fin 2) = t.val / 2 % 4 :=
  (by decide +kernel : ∀ t : Fin grid2.N, _)

/-- The two operand arrays and the bias row as the region finds them, as plain tables of extended reals. -/
abbrev lhs2 (c : Dev nD) : S8192x4096.Idx → EReal := V c main_v11
abbrev rhs2 (c : Dev nD) : S4096x4096.Idx → EReal := V c main_v7
abbrev bias2 (c : Dev nD) : S1x4096.Idx → EReal := V c main_v8

/-- The left operand's block at point `t`, entry (p, k): the array at row (t / 8)·1024 + p, column (t % 2)·2048 + k. -/
theorem blk2_0_apply (c : Dev nD) (t : Fin cfg2.N) (p : Fin 1024) (k : Fin 2048) (R : Fin 8192) (K : Fin 4096)
    (hR : R.val = t.val / 8 * 1024 + p.val) (hK : K.val = t.val % 2 * 2048 + k.val) :
    (iblk2 V c 0 t : Vec Ideal S1024x2048 .bf16) (ix2 p k) = lhs2 V c (ix2 R K) := by
  obtain ⟨e0, e1, -⟩ := idx2 t
  unfold iblk2
  rw [View.read_apply]
  show lhs2 V c _ = _
  congr 1
  funext a
  apply Fin.ext
  match a with
  | ⟨0, _⟩ => show win2_0.index t (0 : Fin 2) * 1024 + 1 * p.val = R.val; omega
  | ⟨1, _⟩ => show win2_0.index t (1 : Fin 2) * 2048 + 1 * k.val = K.val; omega

/-- The right operand's block at point `t`, entry (k, q): the array at row (t % 2)·2048 + k, column (t / 2 % 4)·1024 + q. -/
theorem blk2_1_apply (c : Dev nD) (t : Fin cfg2.N) (k : Fin 2048) (q : Fin 1024) (K : Fin 4096) (C : Fin 4096)
    (hK : K.val = t.val % 2 * 2048 + k.val) (hC : C.val = t.val / 2 % 4 * 1024 + q.val) :
    (iblk2 V c 1 t : Vec Ideal S2048x1024 .bf16) (ix2 k q) = rhs2 V c (ix2 K C) := by
  obtain ⟨-, -, e2, e3, -⟩ := idx2 t
  unfold iblk2
  rw [View.read_apply]
  show rhs2 V c _ = _
  congr 1
  funext a
  apply Fin.ext
  match a with
  | ⟨0, _⟩ => show win2_1.index t (0 : Fin 2) * 2048 + 1 * k.val = K.val; omega
  | ⟨1, _⟩ => show win2_1.index t (1 : Fin 2) * 1024 + 1 * q.val = C.val; omega

/-- The bias row's block at point `t`, entry (0, q): the row at column (t / 2 % 4)·1024 + q. -/
theorem blk2_2_apply (c : Dev nD) (t : Fin cfg2.N) (q : Fin 1024) (C : Fin 4096)
    (hC : C.val = t.val / 2 % 4 * 1024 + q.val) :
    (iblk2 V c 2 t : Vec Ideal S1x1024 .f32) (ix2 (0 : Fin 1) q) = bias2 V c (ix2 (0 : Fin 1) C) := by
  obtain ⟨-, -, -, -, e4, e5, -⟩ := idx2 t
  unfold iblk2
  rw [View.read_apply]
  show bias2 V c _ = _
  congr 1
  funext a
  apply Fin.ext
  match a with
  | ⟨0, _⟩ => show win2_2.index t (0 : Fin 2) * 1 + 1 * 0 = 0; omega
  | ⟨1, _⟩ => show win2_2.index t (1 : Fin 2) * 1024 + 1 * q.val = C.val; omega

/-- An accumulator reset to zero, then two halves of a contraction added one after the other, is the whole contraction. -/
theorem two_halves2 (f : Fin 4096 → EReal) :
    (0 + ∑ k : Fin 2048, f ⟨k.val, by omega⟩) + ∑ k : Fin 2048, f ⟨2048 + k.val, by omega⟩ = ∑ k : Fin 4096, f k := by
  rw [zero_add]
  exact (Fin.sum_univ_add (a := 2048) (b := 2048) f).symm

/-- THE SPECIFIED RESULT: entry (r, q) is the contraction of row r of the left array with column q of the right one, plus the
    bias at q. -/
def prod2 (A : S8192x4096.Idx → EReal) (B : S4096x4096.Idx → EReal) (b : S1x4096.Idx → EReal) : S8192x4096.Idx → EReal :=
  fun i => (∑ k : Fin 4096, A (ix2 (i 0) k) * B (ix2 k (i 1))) + b (ix2 (0 : Fin 1) (i 1))

/-- What the output block holds after the second point of a pair, entry (p, q): the whole contraction plus the bias at the
    entry's place in the array. -/
theorem out2_at (c : Dev nD) (t : Fin cfg2.N) (h1 : t.val % 2 = 1) (p q : Fin 1024) (R : Fin 8192) (C : Fin 4096)
    (hR : R.val = t.val / 8 * 1024 + p.val) (hC : C.val = t.val / 2 % 4 * 1024 + q.val) :
    ((outsAt2 V c t.val t.isLt).1 : Vec Ideal S1024x1024 .f32) (ix2 p q)
      = (∑ k : Fin 4096, lhs2 V c (ix2 R k) * rhs2 V c (ix2 k C)) + bias2 V c (ix2 (0 : Fin 1) C) := by
  have hN : cfg2.N = 64 := N_2
  have h0 : ¬t.val % 2 = 0 := by omega
  have hlt : t.val - 1 < cfg2.N := Nat.lt_of_le_of_lt (Nat.sub_le _ _) t.isLt
  have h0' : (⟨t.val - 1, hlt⟩ : Fin cfg2.N).val % 2 = 0 := by show (t.val - 1) % 2 = 0; omega
  have h1' : ¬(⟨t.val - 1, hlt⟩ : Fin cfg2.N).val % 2 = 1 := by show ¬(t.val - 1) % 2 = 1; omega
  have eA := outsAt2_A V c ⟨t.val - 1, hlt⟩ h0' h1'
  rw [outsAt2_B V c t h0 h1]
  dsimp only
  rw [out2_B_eq, show (outsAt2 V c (t.val - 1) hlt).2 = _ from congrArg Prod.snd eA]
  dsimp only
  rw [sout2_A_eq, Cert.SelfAttn.Block.out_bias, Cert.SelfAttn.Block.acc_step2, Cert.SelfAttn.Block.acc_step2, Cert.SelfAttn.Block.acc_reset2,
    blk2_2_apply V c t q C hC]
  congr 1
  refine Eq.trans ?_ (two_halves2 fun k => lhs2 V c (ix2 R k) * rhs2 V c (ix2 k C))
  congr 1
  · congr 1
    refine Finset.sum_congr rfl fun k _ => ?_
    rw [blk2_0_apply V c ⟨t.val - 1, hlt⟩ p k R ⟨k.val, by omega⟩ (by show R.val = (t.val - 1) / 8 * 1024 + p.val; omega) (by show k.val = (t.val - 1) % 2 * 2048 + k.val; omega),
      blk2_1_apply V c ⟨t.val - 1, hlt⟩ k q ⟨k.val, by omega⟩ C (by show k.val = (t.val - 1) % 2 * 2048 + k.val; omega) (by show C.val = (t.val - 1) / 2 % 4 * 1024 + q.val; omega)]
  · refine Finset.sum_congr rfl fun k _ => ?_
    rw [blk2_0_apply V c t p k R ⟨2048 + k.val, by omega⟩ hR (by show 2048 + k.val = t.val % 2 * 2048 + k.val; omega),
      blk2_1_apply V c t k q ⟨2048 + k.val, by omega⟩ C (by show 2048 + k.val = t.val % 2 * 2048 + k.val; omega) hC]

/-! ## From the blocks to the array -/

/-- An index of the output array is in point `t`'s block iff each coordinate is in the block's range on its axis. -/
theorem mem_blk2 (t : Fin cfg2.N) (i : S8192x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v12).slice (win2_3.rect t)).set ↔ _
  rw [View.set_slice_whole, Rect.mem_set_unit]
  exact Iff.rfl

/-- WHAT A POINT WRITES BACK (only the second point of a pair does) is its block of the specified result. -/
theorem flushed2_eq (c : Dev nD) (t : Fin cfg2.N) (hf : (cfg2.win 3).flush t = true) :
    (dat2 V c).flushed 3 t = ((cfg2.win 3).blk t).view.read (Elt Ideal) (prod2 (lhs2 V c) (rhs2 V c) (bias2 V c)) := by
  have h1 : t.val % 2 = 1 := (flush2_3 t).mp hf
  obtain ⟨-, -, -, -, -, -, e6, e7⟩ := idx2 t
  show (cfg2.win 3).cut (grid2.coords t) ((dat2 V c).after 3 t) = _
  rw [after2_3]
  funext y
  have hy0 : (y 0).val < 1024 := (y 0).isLt
  have hy1 : (y 1).val < 1024 := (y 1).isLt
  have ey : (cfg2.win 3).xinj (grid2.coords t) y = ix2 (⟨(y 0).val, hy0⟩ : Fin 1024) (⟨(y 1).val, hy1⟩ : Fin 1024) :=
    funext fun a => Fin.ext (by match a with | ⟨0, _⟩ => rfl | ⟨1, _⟩ => rfl)
  refine ((congrArg ((outsAt2 V c t.val t.isLt).1 : S1024x1024.Idx → EReal) ey).trans
    (out2_at V c t h1 _ _ ((((cfg2.win 3).blk t).view.emb y) 0) ((((cfg2.win 3).blk t).view.emb y) 1) ?_ ?_)).trans ?_
  · show win2_3.index t (0 : Fin 2) * 1024 + 1 * (y 0).val = t.val / 8 * 1024 + (y 0).val; omega
  · show win2_3.index t (1 : Fin 2) * 1024 + 1 * (y 1).val = t.val / 2 % 4 * 1024 + (y 1).val; omega
  · rfl

/-- Every index of the output array is in the block some second point of a pair writes back. -/
theorem cover2 (i : S8192x4096.Idx) : ∃ t : Fin cfg2.N, (cfg2.win 3).flush t = true ∧ i ∈ ((cfg2.win 3).blk t).view.set := by
  have hi0 : (i 0).val < 8192 := (i 0).isLt
  have hi1 : (i 1).val < 4096 := (i 1).isLt
  have hN : cfg2.N = 64 := N_2
  have hlt : ((i 0).val / 1024 * 4 + (i 1).val / 1024) * 2 + 1 < cfg2.N := by omega
  obtain ⟨-, -, -, -, -, -, e6, e7⟩ := idx2 ⟨((i 0).val / 1024 * 4 + (i 1).val / 1024) * 2 + 1, hlt⟩
  have ht : (⟨((i 0).val / 1024 * 4 + (i 1).val / 1024) * 2 + 1, hlt⟩ : Fin cfg2.N).val = ((i 0).val / 1024 * 4 + (i 1).val / 1024) * 2 + 1 := rfl
  refine ⟨⟨((i 0).val / 1024 * 4 + (i 1).val / 1024) * 2 + 1, hlt⟩, (flush2_3 _).mpr (by rw [ht]; omega), ?_⟩
  rw [mem_blk2]
  intro a
  match a with
  | ⟨0, _⟩ =>
    show win2_3.index _ (0 : Fin 2) * 1024 ≤ (i 0).val ∧ (i 0).val < win2_3.index _ (0 : Fin 2) * 1024 + 1024
    omega
  | ⟨1, _⟩ =>
    show win2_3.index _ (1 : Fin 2) * 1024 ≤ (i 1).val ∧ (i 1).val < win2_3.index _ (1 : Fin 2) * 1024 + 1024
    omega

/-- THE OUTPUT ARRAY AFTER THE REGION is the specified result of the two operand arrays and the bias row as the region found
    them. -/
theorem region2_array (c : Dev nD) : (dat2 V c).arrAt 3 cfg2.N = prod2 (lhs2 V c) (rhs2 V c) (bias2 V c) :=
  (dat2 V c).arrAt_eq_of_cover 3 (prod2 (lhs2 V c) (rhs2 V c) (bias2 V c)) (flushed2_eq V c) cover2

/-- Entry by entry: row r, column q of the output is the contraction of row r of the left array with column q of the right,
    plus the bias at q. -/
theorem region2_value (c : Dev nD) (r : Fin 8192) (q : Fin 4096) :
    ((dat2 V c).arrAt 3 cfg2.N : S8192x4096.Idx → EReal) (ix2 r q)
      = (∑ j : Fin 4096, lhs2 V c (ix2 r j) * rhs2 V c (ix2 j q)) + bias2 V c (ix2 (0 : Fin 1) q) :=
  congrFun (region2_array V c) (ix2 r q)

end Cert.KernelIdeal.HandValue

end
-- ==== Proof.ValueKI.Compose.lean ====
/-
  The idealized kernel program computes the specification. Entry (r, q) of the result is what the second product's region leaves:
  the sum over the 4096 head-major positions j' of the attention output of row r at (j' div 128, j' mod 128) times the permuted
  weight row j', plus the bias. The attention output of row r is the specification's `attend` of the three tables read off row r
  of the first product's result, which is the projection of row r of x by the qkv weights. The permuted weight at (j', q) is the
  projection weight at (q, (j' mod 128)·32 + j' div 128), so re-indexing the sum by the bijection between the head-major and the
  lane-major flattening turns it into the specification's sum; only commutativity and associativity of + are used, so nothing
  needs the inputs to be finite.
-/
import proofs.«100182_j74002286510407_2_alg».proof.Proof.ValueKI.HostReads
import proofs.«100182_j74002286510407_2_alg».proof.Proof.ValueKI.Region0Value
import proofs.«100182_j74002286510407_2_alg».proof.Proof.ValueKI.Region1Value
import proofs.«100182_j74002286510407_2_alg».proof.Proof.ValueKI.Region2Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Cert.SelfAttn Cert.SelfAttn.Alg

variable (m : (ℓ : Loc nD τ sig) → Buf (Elt Ideal) ℓ)

/-- The four argument arrays as tables over literal index types. -/
abbrev argX (c : Dev nD) : Fin 8192 → Fin 4096 → EReal := fun r k => m ((c.tc : Thread nD τ).loc main_arg0) (ix2 r k)
abbrev argWq (c : Dev nD) : Fin 12288 → Fin 4096 → EReal := fun n k => m ((c.tc : Thread nD τ).loc main_arg1) (ix2 n k)
abbrev argWp (c : Dev nD) : Fin 4096 → Fin 4096 → EReal := fun a j => m ((c.tc : Thread nD τ).loc main_arg2) (ix2 a j)
abbrev argB (c : Dev nD) : Fin 4096 → EReal := fun a => m ((c.tc : Thread nD τ).loc main_arg3) (ix1 a)

/-- The first product's result at (r, n) is the projection of row r of x. -/
theorem qkv_at (c : Dev nD) (r : Fin 8192) (n : Fin 12288) :
    (W2 m c (Proc.devRef .tc main_v9) : S8192x12288.Idx → EReal) (ix2 r n) = proj (argX m c r) (argWq m c) n := by
  rw [W2_v9, region0_value (Hand.V1 m) c r n]
  unfold proj
  refine Finset.sum_congr (M := EReal) rfl fun k _ => ?_
  unfold lhs0 rhs0
  rw [V1_v0, V1_v2, truncf_id, truncf_id, wqT_at]

/-- The attention region's result at (r, n) is the attention output of row r at head n div 128, lane n mod 128. -/
theorem attn_at (c : Dev nD) (r : Fin 8192) (n : Fin 4096) :
    (Hand.V4 m c main_v11 : S8192x4096.Idx → EReal) (ix2 r n)
      = heads (argX m c r) (argWq m c) (⟨n.val / 128, by have := n.isLt; omega⟩ : Fin 32) (⟨n.val % 128, Nat.mod_lt _ (by norm_num)⟩ : Fin 128) := by
  have h : ∀ (p : Fin 3) (h : Fin 32) (d : Fin 128), (Hand.V3 m c main_v10 : S8192x3x32x128.Idx → EReal) (ix4 r p h d) = part (proj (argX m c r) (argWq m c)) p h d :=
    fun p h d => by rw [V3_v10, qkvView_at]; exact qkv_at m c r (slot p h d)
  rw [V4_v11, region1_value (Hand.V3 m) c r n]
  unfold heads
  simp only [h]

/-- THE KERNEL SIDE: the result array after the run is the specification of the argument arrays. -/
theorem kernel_is_spec (c : Dev nD) :
    ((dat2 (Hand.V4 m) c).arrAt 3 cfg2.N : S8192x4096.Idx → EReal) = fun i => G (argX m c) (argWq m c) (argWp m c) (argB m c) (i 0) (i 1) := by
  funext i
  obtain ⟨r, q, rfl⟩ : ∃ (r : Fin 8192) (q : Fin 4096), i = ix2 r q := ⟨i 0, i 1, eq_ix2 i⟩
  rw [region2_value (Hand.V4 m) c r q]
  unfold lhs2 rhs2 bias2
  show _ = outRow (heads (argX m c r) (argWq m c)) (argWp m c) (argB m c) q
  unfold outRow
  rw [← flatten_swap (heads (argX m c r) (argWq m c)) (fun j => argWp m c q j)]
  refine congrArg₂ (· + ·) (Finset.sum_congr rfl fun j' _ => ?_) ?_
  · rw [attn_at, V4_v7, V1_v7, truncf_id, wpPerm_at]
  · rw [V4_v8, V1_v8, bias_at]

end Cert.KernelIdeal.HandValue

end
-- ==== Proof.RefIsSpec.lean ====
/-
  The reference program computes the specification.

  The reference is read one operation at a time, each at explicit coordinates, from the inputs to the
  result: the qkv projection as a sum over the input row, its three 32 × 128 tables, the scaled scores,
  their maximum folded from the seed, the shifted exponentials, their sum, the weights, the mixed rows
  of v, the lane-major flattening, the output projection and the bias.
-/
import proofs.«100182_j74002286510407_2_alg».proof.Proof.Gen.ReferenceIdeal.Read
import proofs.«100182_j74002286510407_2_alg».proof.Proof.AttnSpec

noncomputable section

namespace Cert.SelfAttn.Ref

open Idealize.ShloMosaic Idealize.ShloMosaic.ValueIdx Cert.ReferenceIdeal Cert.ReferenceIdeal.Gen Cert.ReferenceIdeal.Read Cert.SelfAttn

variable (x0 : (⟨S8192x4096, .f32⟩ : BufTy).Contents (Elt Ideal)) (x1 : (⟨S12288x4096, .f32⟩ : BufTy).Contents (Elt Ideal))

/-- Row `r` of the input array. -/
abbrev rowOf (r : Fin 8192) : Fin 4096 → EReal := fun k => x0 (ix2 r k)
/-- The qkv matrix by rows. -/
abbrev wqOf : Fin 12288 → Fin 4096 → EReal := fun n k => x1 (ix2 n k)

/-- The projection: entry (r, n) is the scalar product of row r of the input with row n of the matrix. -/
theorem v1_at (r : Fin 8192) (n : Fin 12288) :
    val_main_v1 (F := Ideal) x0 x1 (ix2 r n) = proj (rowOf x0 r) (wqOf x1) n := by
  rw [val_main_v1_apply]
  unfold proj
  refine Finset.sum_congr rfl fun k _ => ?_
  rw [val_main_v0_apply]
  have e1 : lidx_main_v1 (ix2 r n) k = ix2 r k :=
    funext fun a => Fin.ext (by match a with | ⟨0, _⟩ => rfl | ⟨1, _⟩ => rfl)
  have e2 : idx_main_v0 (ridx_main_v1 (ix2 r n) k) = ix2 n k :=
    funext fun a => Fin.ext (by match a with | ⟨0, _⟩ => rfl | ⟨1, _⟩ => rfl)
  rw [e1, e2]

/-- The reshape to [8192, 3, 32, 128]: part p, head h, lane d of row r is entry `slot p h d` of the projection. -/
theorem v2_at (r : Fin 8192) (p : Fin 3) (h : Fin 32) (d : Fin 128) :
    val_main_v2 (F := Ideal) x0 x1 (ix4 r p h d) = proj (rowOf x0 r) (wqOf x1) (slot p h d) := by
  rw [val_main_v2_apply]
  have e : idx_main_v2 (ix4 r p h d) = ix2 r (slot p h d) :=
    funext fun a => Fin.ext (by
      have hr := r.isLt; have hp := p.isLt; have hh := h.isLt; have hd := d.isLt
      match a with
      | ⟨0, _⟩ => show (((r.val * 3 + p.val) * 32 + h.val) * 128 + d.val) / 12288 = r.val; omega
      | ⟨1, _⟩ => show (((r.val * 3 + p.val) * 32 + h.val) * 128 + d.val) % 12288 = p.val * 4096 + h.val * 128 + d.val; omega)
  rw [e, v1_at]

/-- The three slices and their reshapes to [8192, 32, 128]: the tables q, k, v of row r. -/
theorem e_v4 (r : Fin 8192) (h : Fin 32) (d : Fin 128) :
    idx_main_v4 (ix3 r h d) = ix4 r (0 : Fin 1) h d :=
  funext fun a => Fin.ext (by
    have hr := r.isLt; have hh := h.isLt; have hd := d.isLt
    match a with
    | ⟨0, _⟩ => show ((r.val * 32 + h.val) * 128 + d.val) / 4096 = r.val; omega
    | ⟨1, _⟩ => rfl
    | ⟨2, _⟩ => show ((r.val * 32 + h.val) * 128 + d.val) / 128 % 32 = h.val; omega
    | ⟨3, _⟩ => show ((r.val * 32 + h.val) * 128 + d.val) % 128 = d.val; omega)

theorem q_at (r : Fin 8192) (h : Fin 32) (d : Fin 128) :
    val_main_v4 (F := Ideal) x0 x1 (ix3 r h d) = part (proj (rowOf x0 r) (wqOf x1)) 0 h d := by
  rw [val_main_v4_apply, e_v4, val_main_v3_apply]
  have e : idx_main_v3 (ix4 r (0 : Fin 1) h d) = ix4 r (0 : Fin 3) h d :=
    funext fun a => Fin.ext (by match a with | ⟨0, _⟩ => rfl | ⟨1, _⟩ => rfl | ⟨2, _⟩ => rfl | ⟨3, _⟩ => rfl)
  rw [e, v2_at]; rfl

theorem k_at (r : Fin 8192) (h : Fin 32) (d : Fin 128) :
    val_main_v6 (F := Ideal) x0 x1 (ix3 r h d) = part (proj (rowOf x0 r) (wqOf x1)) 1 h d := by
  rw [val_main_v6_apply, show idx_main_v6 (ix3 r h d) = ix4 r (0 : Fin 1) h d from e_v4 r h d, val_main_v5_apply]
  have e : idx_main_v5 (ix4 r (0 : Fin 1) h d) = ix4 r (1 : Fin 3) h d :=
    funext fun a => Fin.ext (by match a with | ⟨0, _⟩ => rfl | ⟨1, _⟩ => rfl | ⟨2, _⟩ => rfl | ⟨3, _⟩ => rfl)
  rw [e, v2_at]; rfl

theorem v_at (r : Fin 8192) (h : Fin 32) (d : Fin 128) :
    val_main_v8 (F := Ideal) x0 x1 (ix3 r h d) = part (proj (rowOf x0 r) (wqOf x1)) 2 h d := by
  rw [val_main_v8_apply, show idx_main_v8 (ix3 r h d) = ix4 r (0 : Fin 1) h d from e_v4 r h d, val_main_v7_apply]
  have e : idx_main_v7 (ix4 r (0 : Fin 1) h d) = ix4 r (2 : Fin 3) h d :=
    funext fun a => Fin.ext (by match a with | ⟨0, _⟩ => rfl | ⟨1, _⟩ => rfl | ⟨2, _⟩ => rfl | ⟨3, _⟩ => rfl)
  rw [e, v2_at]; rfl

/-- The three tables of row r, named. -/
abbrev qOf (r : Fin 8192) : Fin 32 → Fin 128 → EReal := part (proj (rowOf x0 r) (wqOf x1)) 0
abbrev kOf (r : Fin 8192) : Fin 32 → Fin 128 → EReal := part (proj (rowOf x0 r) (wqOf x1)) 1
abbrev vOf (r : Fin 8192) : Fin 32 → Fin 128 → EReal := part (proj (rowOf x0 r) (wqOf x1)) 2

/-- The scaled scores. -/
theorem v11_at (r : Fin 8192) (h g : Fin 32) :
    val_main_v11 (F := Ideal) x0 x1 (ix3 r h g) = score (qOf x0 x1 r) (kOf x0 x1 r) h g := by
  rw [val_main_v11_apply, val_main_v9_apply, val_main_v10_apply, val_main_cst_apply]
  unfold score scale
  rw [Ideal.mulf_def, Ideal.ofBits_def]
  refine congrArg (· * _) (Finset.sum_congr rfl fun d _ => ?_)
  have e1 : lidx_main_v9 (ix3 r h g) d = ix3 r h d :=
    funext fun a => Fin.ext (by match a with | ⟨0, _⟩ => rfl | ⟨1, _⟩ => rfl | ⟨2, _⟩ => rfl)
  have e2 : ridx_main_v9 (ix3 r h g) d = ix3 r g d :=
    funext fun a => Fin.ext (by match a with | ⟨0, _⟩ => rfl | ⟨1, _⟩ => rfl | ⟨2, _⟩ => rfl)
  rw [e1, e2, q_at, k_at]

/-- The shape fact that names the index inserted on the reduced axis. -/
theorem red2 : Shape.Reduces S8192x32x32 [2] S8192x32 := by decide

/-- Inserting coordinate g on the last axis of (r, h) gives (r, h, g). -/
theorem lift_at (r : Fin 8192) (h g : Fin 32) : red2.lift (ix2 r h) g = ix3 r h g :=
  funext fun a => Fin.ext (by match a with | ⟨0, _⟩ => rfl | ⟨1, _⟩ => rfl | ⟨2, _⟩ => rfl)

/-- The max-reduce over the last axis: the fold of max from the seed over a head's 32 scores. -/
theorem v12_at (r : Fin 8192) (h : Fin 32) :
    val_main_v12 (F := Ideal) x0 x1 (ix2 r h) = rowMax (score (qOf x0 x1 r) (kOf x0 x1 r) h) := by
  unfold val_main_v12
  refine (Host.reduce_eq_fold_single (FloatOps.maximumf (F := Ideal) (φ := .f32)) (val_main_v11 (F := Ideal) x0 x1)
    (val_main_cst_0 (F := Ideal)) reducesTo_S8192x32x32_S8192x32_d2 red2 h_S_ (ix2 r h)).trans ?_
  have hf : (val_main_v11 (F := Ideal) x0 x1 ∘ red2.lift (ix2 r h)) = score (qOf x0 x1 r) (kOf x0 x1 r) h :=
    funext fun g => (congrArg (val_main_v11 (F := Ideal) x0 x1) (lift_at r h g)).trans (v11_at x0 x1 r h g)
  rw [hf]
  rfl

/-- The maximum with the seed's splat changes nothing: the fold already starts from the seed. -/
theorem v14_at (r : Fin 8192) (h : Fin 32) :
    val_main_v14 (F := Ideal) x0 x1 (ix2 r h) = rowMax (score (qOf x0 x1 r) (kOf x0 x1 r) h) := by
  rw [val_main_v14_apply, val_main_v13_apply, val_main_cst_1_apply, v12_at, Ideal.maximumf_def, Ideal.ofBits_def]
  unfold rowMax seed
  exact max_eq_right ((Finset.le_fold_max _).mpr (Or.inl le_rfl))

theorem v16_at (r : Fin 8192) (h g : Fin 32) :
    val_main_v16 (F := Ideal) x0 x1 (ix3 r h g) = rowMax (score (qOf x0 x1 r) (kOf x0 x1 r) h) := by
  rw [val_main_v16_apply, val_main_v15_apply]
  have e : idx_main_v15 (idx_main_v16 (ix3 r h g)) = ix2 r h :=
    funext fun a => Fin.ext (by match a with | ⟨0, _⟩ => rfl | ⟨1, _⟩ => rfl)
  rw [e, v14_at]

/-- The shifted exponentials. -/
theorem v18_at (r : Fin 8192) (h g : Fin 32) :
    val_main_v18 (F := Ideal) x0 x1 (ix3 r h g) = shifted (score (qOf x0 x1 r) (kOf x0 x1 r) h) g := by
  rw [val_main_v18_apply, val_main_v17_apply, v11_at, v16_at, Ideal.hostUnary_exp_def, Ideal.subf_def]
  rfl

/-- Their sum over the last axis (the initial value is the zero word). -/
theorem v19_at (r : Fin 8192) (h : Fin 32) :
    val_main_v19 (F := Ideal) x0 x1 (ix2 r h) = ∑ g : Fin 32, shifted (score (qOf x0 x1 r) (kOf x0 x1 r) h) g := by
  rw [val_main_v19_apply, val_main_cst_2_apply, Ideal.ofBits_def, Ideal.ofBits_zero_f32, zero_add]
  refine Finset.sum_congr rfl fun g _ => ?_
  have e : idx_main_v19 (ix2 r h) g = ix3 r h g :=
    funext fun a => Fin.ext (by match a with | ⟨0, _⟩ => rfl | ⟨1, _⟩ => rfl | ⟨2, _⟩ => rfl)
  rw [e, v18_at]

theorem v21_at (r : Fin 8192) (h g : Fin 32) :
    val_main_v21 (F := Ideal) x0 x1 (ix3 r h g) = ∑ g' : Fin 32, shifted (score (qOf x0 x1 r) (kOf x0 x1 r) h) g' := by
  rw [val_main_v21_apply, val_main_v20_apply]
  have e : idx_main_v20 (idx_main_v21 (ix3 r h g)) = ix2 r h :=
    funext fun a => Fin.ext (by match a with | ⟨0, _⟩ => rfl | ⟨1, _⟩ => rfl)
  rw [e, v19_at]

/-- The softmax weights. -/
theorem v22_at (r : Fin 8192) (h g : Fin 32) :
    val_main_v22 (F := Ideal) x0 x1 (ix3 r h g) = weight (score (qOf x0 x1 r) (kOf x0 x1 r) h) g := by
  rw [val_main_v22_apply, v18_at, v21_at, Ideal.hostDivf_def]
  rfl

/-- The weights mix the rows of v: the attention output of row r. -/
theorem v23_at (r : Fin 8192) (h : Fin 32) (d : Fin 128) :
    val_main_v23 (F := Ideal) x0 x1 (ix3 r h d) = heads (rowOf x0 r) (wqOf x1) h d := by
  rw [val_main_v23_apply]
  unfold heads attend
  refine Finset.sum_congr rfl fun g _ => ?_
  have e1 : lidx_main_v23 (ix3 r h d) g = ix3 r h g :=
    funext fun a => Fin.ext (by match a with | ⟨0, _⟩ => rfl | ⟨1, _⟩ => rfl | ⟨2, _⟩ => rfl)
  have e2 : ridx_main_v23 (ix3 r h d) g = ix3 r g d :=
    funext fun a => Fin.ext (by match a with | ⟨0, _⟩ => rfl | ⟨1, _⟩ => rfl | ⟨2, _⟩ => rfl)
  rw [e1, e2, v22_at, v_at]

/-- The transpose to [8192, 128, 32] and the flattening: position j of row r holds head j mod 32, lane j div 32. -/
theorem v25_at (r : Fin 8192) (j : Fin 4096) :
    val_main_v25 (F := Ideal) x0 x1 (ix2 r j) = heads (rowOf x0 r) (wqOf x1) (headOf j) (laneOf j) := by
  rw [val_main_v25_apply, val_main_v24_apply]
  have e : idx_main_v24 (idx_main_v25 (ix2 r j)) = ix3 r (headOf j) (laneOf j) :=
    funext fun a => Fin.ext (by
      have hr := r.isLt; have hj := j.isLt
      match a with
      | ⟨0, _⟩ => show (r.val * 4096 + j.val) / 4096 = r.val; omega
      | ⟨1, _⟩ => show (r.val * 4096 + j.val) % 32 = j.val % 32; omega
      | ⟨2, _⟩ => show (r.val * 4096 + j.val) / 32 % 128 = j.val / 32; omega)
  rw [e, v23_at]

/-- THE REFERENCE AT AN INDEX: entry (r, c) of the reference's result is the specification there. -/
theorem ref_is_spec (x0 : (⟨S8192x4096, .f32⟩ : BufTy).Contents (Elt Ideal)) (x1 : (⟨S12288x4096, .f32⟩ : BufTy).Contents (Elt Ideal))
    (x2 : (⟨S4096x4096, .f32⟩ : BufTy).Contents (Elt Ideal)) (x3 : (⟨S4096, .f32⟩ : BufTy).Contents (Elt Ideal))
    (r : Fin 8192) (c : Fin 4096) :
    val_main_v30 (F := Ideal) x0 x1 x2 x3 (ix2 r c)
      = G (fun r k => x0 (ix2 r k)) (fun n k => x1 (ix2 n k)) (fun c j => x2 (ix2 c j)) (fun c => x3 (ix1 c)) r c := by
  rw [val_main_v30_apply, val_main_v27_apply, val_main_v29_apply, val_main_v28_apply, Ideal.addf_def]
  unfold G outRow
  have eb : idx_main_v28 (idx_main_v29 (ix2 r c)) = ix1 c :=
    funext fun a => Fin.ext (by match a with | ⟨0, _⟩ => rfl)
  rw [eb]
  refine congrArg (· + _) (Finset.sum_congr rfl fun j _ => ?_)
  have e1 : lidx_main_v27 (ix2 r c) j = ix2 r j :=
    funext fun a => Fin.ext (by match a with | ⟨0, _⟩ => rfl | ⟨1, _⟩ => rfl)
  have e2 : idx_main_v26 (ridx_main_v27 (ix2 r c) j) = ix2 c j :=
    funext fun a => Fin.ext (by match a with | ⟨0, _⟩ => rfl | ⟨1, _⟩ => rfl)
  rw [e1, v25_at, val_main_v26_apply, e2]

section WholeArray

open Idealize.ShloMosaic.TcCoe Idealize.SL.Sem Idealize.ShloMosaic.StableHlo

/-- THE REFERENCE'S RESULT ARRAY is the specification of the four argument arrays, index by index. -/
theorem res_is_spec (m : (ℓ : Loc nD τ sig) → Buf (Elt Ideal) ℓ) (c : Dev nD) :
    Cert.ReferenceIdeal.Value.res_main_v30 (F := Ideal) m c
      = fun i => G (fun r k => m ((c.tc : Thread nD τ).loc main_arg0) (ix2 r k))
          (fun n k => m ((c.tc : Thread nD τ).loc main_arg1) (ix2 n k))
          (fun a j => m ((c.tc : Thread nD τ).loc main_arg2) (ix2 a j))
          (fun a => m ((c.tc : Thread nD τ).loc main_arg3) (ix1 a)) (i 0) (i 1) := by
  rw [val_main_v30_eq]
  funext i
  exact (congrArg (val_main_v30 (F := Ideal) (m ((c.tc : Thread nD τ).loc main_arg0)) (m ((c.tc : Thread nD τ).loc main_arg1))
      (m ((c.tc : Thread nD τ).loc main_arg2)) (m ((c.tc : Thread nD τ).loc main_arg3))) (eq_ix2 i)).trans
    (ref_is_spec _ _ _ _ (i 0) (i 1))

end WholeArray

end Cert.SelfAttn.Ref

end
-- ==== Proof.lean ====
/-
  The proof of `Cert.Claim` for a self-attention layer over the head axis: x · wqᵀ split into q, k, v tables of 32 heads × 128
  lanes per batch row, softmax attention of the heads over one another, and the output projection with bias. The kernel program
  does it in three pipelined regions (a K-blocked matrix product, the per-row attention, a second K-blocked product whose weights
  were permuted on the host so that the attention output can be flattened head-major); the reference is plain array code that
  flattens lane-major. Over the extended reals both compute one function of the four argument arrays, `Cert.SelfAttn.G`
  (Proof/AttnSpec.lean): the reference by Proof/RefIsSpec.lean, the kernel program by Proof/ValueKI/Compose.lean over the run of
  Proof/FrameKI/Run.lean. The two ways differ only in the order and grouping of finite sums, so the precondition is never used.
  The frames of the two kernel programs are that same run read at the argument arrays, at the word-level and at the ideal
  instance; the reference's frame is its run with the result dropped. The ideal pass rewrote nothing, so `preserves` is trivial.
-/
import proofs.«100182_j74002286510407_2_alg».proof.Defs
import proofs.«100182_j74002286510407_2_alg».proof.Proof.Gen.Kernel
import proofs.«100182_j74002286510407_2_alg».proof.Proof.Gen.KernelIdeal
import proofs.«100182_j74002286510407_2_alg».proof.Proof.Gen.ReferenceIdeal
import proofs.«100182_j74002286510407_2_alg».proof.Proof.Gen.ReferenceIdeal.Read
import proofs.«100182_j74002286510407_2_alg».proof.Proof.Gen.Pre_finite_inputs
import proofs.«100182_j74002286510407_2_alg».proof.Proof.FrameK.Run
import proofs.«100182_j74002286510407_2_alg».proof.Proof.FrameKI.Run
import proofs.«100182_j74002286510407_2_alg».proof.Proof.ValueKI.Compose
import proofs.«100182_j74002286510407_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs to the end and leaves its argument arrays as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the specification of those arguments in their result
    arrays. -/
theorem algebraic : Cert.algebraic_KernelIdeal_ReferenceIdeal := by
  intro m ρ m' ρ' _ hagree
  refine ⟨fun c => fun i => Cert.SelfAttn.G (Cert.KernelIdeal.HandValue.argX m c) (Cert.KernelIdeal.HandValue.argWq m c)
      (Cert.KernelIdeal.HandValue.argWp m c) (Cert.KernelIdeal.HandValue.argB m c) (i 0) (i 1), ?_, ?_⟩
  · exact (θ_run Cert.KernelIdeal.defs _ _).mono
      (fun _ h c => ⟨(h c).1.trans (Cert.KernelIdeal.HandValue.kernel_is_spec m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.SelfAttn.Ref.res_is_spec, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
